-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.sign_bit.Statement Cert.KernelIdeal.S1024x256 .f32
  ∧ IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x1024 : Shape := ⟨2, ![4096, 1024]⟩
abbrev S1x1024 : Shape := ⟨2, ![1, 1024]⟩
abbrev S512x18 : Shape := ⟨2, ![512, 18]⟩
abbrev S1x18 : Shape := ⟨2, ![1, 18]⟩
abbrev S512x1 : Shape := ⟨2, ![512, 1]⟩
abbrev S1x1 : Shape := ⟨2, ![1, 1]⟩
abbrev S4096x512 : Shape := ⟨2, ![4096, 512]⟩
abbrev S4096x18 : Shape := ⟨2, ![4096, 18]⟩
abbrev S4096x1 : Shape := ⟨2, ![4096, 1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S512x18 : S_.BroadcastsInDim S512x18 (![] : Fin 0 → Fin S512x18.rank)
  reducesTo_S512x18_S_d0_1 : S512x18.ReducesTo [0, 1] S_
  bcast_S_S1x18 : S_.BroadcastsInDim S1x18 (![] : Fin 0 → Fin S1x18.rank)
  reducesTo_S1x18_S_d0_1 : S1x18.ReducesTo [0, 1] S_
  bcast_S_S512x1 : S_.BroadcastsInDim S512x1 (![] : Fin 0 → Fin S512x1.rank)
  reducesTo_S512x1_S_d0_1 : S512x1.ReducesTo [0, 1] S_
  bcast_S_S1x1 : S_.BroadcastsInDim S1x1 (![] : Fin 0 → Fin S1x1.rank)
  reducesTo_S1x1_S_d0_1 : S1x1.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x18 : S_.BroadcastsInDim S4096x18 (![] : Fin 0 → Fin S4096x18.rank)
  reducesTo_S4096x18_S_d0_1 : S4096x18.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part5 {F : FTy → Type} [FloatOps F] (main_arg18 : FVec F S4096x1 .f32) (main_v83 : IVec S_ 1) (main_v84 : FVec F S4096x512 .f32) (main_cst_32 : FVec F S_ .f32) : IVec S_ 1 :=
  let main_v85 : FVec F S4096x512 .f32 := broadcastInDim S4096x512 ![] bcast_S_S4096x512 main_cst_32
  let main_v86 : IVec S4096x512 1 := cmpf .olt main_v84 main_v85
  let main_c_33 : IVec S_ 1 := constantI S_ 1 1#1
  let main_v87 : IVec S_ 1 := (fun x v => Host.reduce IntOp.andi x v reducesTo_S4096x512_S_d0_1 h_S_) main_v86 main_c_33
  let main_v88 : IVec S_ 1 := andi main_v83 main_v87
  let main_v89 : FVec F S4096x1 .f32 := Host.absf main_arg18
  let main_cst_34 : FVec F S_ .f32 := constant S_ .f32 0x7F800000#32
  let main_v90 : FVec F S4096x1 .f32 := broadcastInDim S4096x1 ![] bcast_S_S4096x1 main_cst_34
  let main_v91 : IVec S4096x1 1 := cmpf .olt main_v89 main_v90
  let main_c_35 : IVec S_ 1 := constantI S_ 1 1#1
  let main_v92 : IVec S_ 1 := (fun x v => Host.reduce IntOp.andi x v reducesTo_S4096x1_S_d0_1 h_S_) main_v91 main_c_35
  let main_v93 : IVec S_ 1 := andi main_v88 main_v92
  main_v93

def fn_part4 {F : FTy → Type} [FloatOps F] (main_arg14 : FVec F S4096x1024 .f32) (main_arg15 : FVec F S4096x512 .f32) (main_arg16 : FVec F S4096x18 .f32) (main_arg17 : FVec F S4096x512 .f32) (main_arg18 : FVec F S4096x1 .f32) (main_v63 : IVec S_ 1) (main_v67 : IVec S_ 1) : IVec S_ 1 :=
  let main_v68 : IVec S_ 1 := andi main_v63 main_v67
  let main_v69 : FVec F S4096x1024 .f32 := Host.absf main_arg14
  let main_cst_26 : FVec F S_ .f32 := constant S_ .f32 0x7F800000#32
  let main_v70 : FVec F S4096x1024 .f32 := broadcastInDim S4096x1024 ![] bcast_S_S4096x1024 main_cst_26
  let main_v71 : IVec S4096x1024 1 := cmpf .olt main_v69 main_v70
  let main_c_27 : IVec S_ 1 := constantI S_ 1 1#1
  let main_v72 : IVec S_ 1 := (fun x v => Host.reduce IntOp.andi x v reducesTo_S4096x1024_S_d0_1 h_S_) main_v71 main_c_27
  let main_v73 : IVec S_ 1 := andi main_v68 main_v72
  let main_v74 : FVec F S4096x512 .f32 := Host.absf main_arg15
  let main_cst_28 : FVec F S_ .f32 := constant S_ .f32 0x7F800000#32
  let main_v75 : FVec F S4096x512 .f32 := broadcastInDim S4096x512 ![] bcast_S_S4096x512 main_cst_28
  let main_v76 : IVec S4096x512 1 := cmpf .olt main_v74 main_v75
  let main_c_29 : IVec S_ 1 := constantI S_ 1 1#1
  let main_v77 : IVec S_ 1 := (fun x v => Host.reduce IntOp.andi x v reducesTo_S4096x512_S_d0_1 h_S_) main_v76 main_c_29
  let main_v78 : IVec S_ 1 := andi main_v73 main_v77
  let main_v79 : FVec F S4096x18 .f32 := Host.absf main_arg16
  let main_cst_30 : FVec F S_ .f32 := constant S_ .f32 0x7F800000#32
  let main_v80 : FVec F S4096x18 .f32 := broadcastInDim S4096x18 ![] bcast_S_S4096x18 main_cst_30
  let main_v81 : IVec S4096x18 1 := cmpf .olt main_v79 main_v80
  let main_c_31 : IVec S_ 1 := constantI S_ 1 1#1
  let main_v82 : IVec S_ 1 := (fun x v => Host.reduce IntOp.andi x v reducesTo_S4096x18_S_d0_1 h_S_) main_v81 main_c_31
  let main_v83 : IVec S_ 1 := andi main_v78 main_v82
  let main_v84 : FVec F S4096x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1x1 .f32) (main_arg12 : FVec F S1x1 .f32) (main_arg13 : FVec F S4096x4096 .f32) (main_arg14 : FVec F S4096x1024 .f32) (main_arg15 : FVec F S4096x512 .f32) (main_arg16 : FVec F S4096x18 .f32) (main_arg17 : FVec F S4096x512 .f32) (main_arg18 : FVec F S4096x1 .f32) (main_v48 : IVec S_ 1) (main_v49 : FVec F S512x1 .f32) (main_v50 : FVec F S512x1 .f32) : IVec S_ 1 :=
  let main_v51 : IVec S512x1 1 := cmpf .olt main_v49 main_v50
  let main_c_19 : IVec S_ 1 := constantI S_ 1 1#1
  let main_v52 : IVec S_ 1 := (fun x v => Host.reduce IntOp.andi x v reducesTo_S512x1_S_d0_1 h_S_) main_v51 main_c_19
  let main_v53 : IVec S_ 1 := andi main_v48 main_v52
  let main_v54 : FVec F S1x1 .f32 := Host.absf main_arg11
  let main_cst_20 : FVec F S_ .f32 := constant S_ .f32 0x7F800000#32
  let main_v55 : FVec F S1x1 .f32 := broadcastInDim S1x1 ![] bcast_S_S1x1 main_cst_20
  let main_v56 : IVec S1x1 1 := cmpf .olt main_v54 main_v55
  let main_c_21 : IVec S_ 1 := constantI S_ 1 1#1
  let main_v57 : IVec S_ 1 := (fun x v => Host.reduce IntOp.andi x v reducesTo_S1x1_S_d0_1 h_S_) main_v56 main_c_21
  let main_v58 : IVec S_ 1 := andi main_v53 main_v57
  let main_v59 : FVec F S1x1 .f32 := Host.absf main_arg12
  let main_cst_22 : FVec F S_ .f32 := constant S_ .f32 0x7F800000#32
  let main_v60 : FVec F S1x1 .f32 := broadcastInDim S1x1 ![] bcast_S_S1x1 main_cst_22
  let main_v61 : IVec S1x1 1 := cmpf .olt main_v59 main_v60
  let main_c_23 : IVec S_ 1 := constantI S_ 1 1#1
  let main_v62 : IVec S_ 1 := (fun x v => Host.reduce IntOp.andi x v reducesTo_S1x1_S_d0_1 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_arg15 main_arg16 main_arg17 main_arg18 main_v63 main_v67

def fn_part2 {F : FTy → Type} [FloatOps F] (main_arg7 : FVec F S1x18 .f32) (main_arg8 : FVec F S1x18 .f32) (main_arg9 : FVec F S512x1 .f32) (main_arg10 : FVec F S512x1 .f32) (main_arg11 : FVec F S1x1 .f32) (main_arg12 : FVec F S1x1 .f32) (main_arg13 : FVec F S4096x4096 .f32) (main_arg14 : FVec F S4096x1024 .f32) (main_arg15 : FVec F S4096x512 .f32) (main_arg16 : FVec F S4096x18 .f32) (main_arg17 : FVec F S4096x512 .f32) (main_arg18 : FVec F S4096x1 .f32) (main_v33 : IVec S_ 1) : IVec S_ 1 :=
  let main_v34 : FVec F S1x18 .f32 := Host.absf main_arg7
  let main_cst_12 : FVec F S_ .f32 := constant S_ .f32 0x7F800000#32
  let main_v35 : FVec F S1x18 .f32 := broadcastInDim S1x18 ![] bcast_S_S1x18 main_cst_12
  let main_v36 : IVec S1x18 1 := cmpf .olt main_v34 main_v35
  let main_c_13 : IVec S_ 1 := constantI S_ 1 1#1
  let main_v37 : IVec S_ 1 := (fun x v => Host.reduce IntOp.andi x v reducesTo_S1x18_S_d0_1 h_S_) main_v36 main_c_13
  let main_v38 : IVec S_ 1 := andi main_v33 main_v37
  let main_v39 : FVec F S1x18 .f32 := Host.absf main_arg8
  let main_cst_14 : FVec F S_ .f32 := constant S_ .f32 0x7F800000#32
  let main_v40 : FVec F S1x18 .f32 := broadcastInDim S1x18 ![] bcast_S_S1x18 main_cst_14
  let main_v41 : IVec S1x18 1 := cmpf .olt main_v39 main_v40
  let main_c_15 : IVec S_ 1 := constantI S_ 1 1#1
  let main_v42 : IVec S_ 1 := (fun x v => Host.reduce IntOp.andi x v reducesTo_S1x18_S_d0_1 h_S_) main_v41 main_c_15
  let main_v43 : IVec S_ 1 := andi main_v38 main_v42
  let main_v44 : FVec F S512x1 .f32 := Host.absf main_arg9
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  let main_v49 : FVec F S512x1 .f32 := Host.absf main_arg10
  let main_cst_18 : FVec F S_ .f32 := constant S_ .f32 0x7F800000#32
  let main_v50 : FVec F S512x1 .f32 := broadcastInDim S512x1 ![] bcast_S_S512x1 main_cst_18
  fn_part3 (F := F) main_arg11 main_arg12 main_arg13 main_arg14 main_arg15 main_arg16 main_arg17 main_arg18 main_v48 main_v49 main_v50

def fn_part1 {F : FTy → Type} [FloatOps F] (main_arg4 : FVec F S1x1024 .f32) (main_arg5 : FVec F S512x18 .f32) (main_arg6 : FVec F S512x18 .f32) (main_arg7 : FVec F S1x18 .f32) (main_arg8 : FVec F S1x18 .f32) (main_arg9 : FVec F S512x1 .f32) (main_arg10 : FVec F S512x1 .f32) (main_arg11 : FVec F S1x1 .f32) (main_arg12 : FVec F S1x1 .f32) (main_arg13 : FVec F S4096x4096 .f32) (main_arg14 : FVec F S4096x1024 .f32) (main_arg15 : FVec F S4096x512 .f32) (main_arg16 : FVec F S4096x18 .f32) (main_arg17 : FVec F S4096x512 .f32) (main_arg18 : FVec F S4096x1 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S512x18 .f32 := Host.absf main_arg5
  let main_cst_8 : FVec F S_ .f32 := constant S_ .f32 0x7F800000#32
  let main_v25 : FVec F S512x18 .f32 := broadcastInDim S512x18 ![] bcast_S_S512x18 main_cst_8
  let main_v26 : IVec S512x18 1 := cmpf .olt main_v24 main_v25
  let main_c_9 : IVec S_ 1 := constantI S_ 1 1#1
  let main_v27 : IVec S_ 1 := (fun x v => Host.reduce IntOp.andi x v reducesTo_S512x18_S_d0_1 h_S_) main_v26 main_c_9
  let main_v28 : IVec S_ 1 := andi main_v23 main_v27
  let main_v29 : FVec F S512x18 .f32 := Host.absf main_arg6
  let main_cst_10 : FVec F S_ .f32 := constant S_ .f32 0x7F800000#32
  let main_v30 : FVec F S512x18 .f32 := broadcastInDim S512x18 ![] bcast_S_S512x18 main_cst_10
  let main_v31 : IVec S512x18 1 := cmpf .olt main_v29 main_v30
  let main_c_11 : IVec S_ 1 := constantI S_ 1 1#1
  let main_v32 : IVec S_ 1 := (fun x v => Host.reduce IntOp.andi x v reducesTo_S512x18_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x4096 .f32) (main_arg1 : FVec F S4096x1024 .f32) (main_arg2 : FVec F S4096x1024 .f32) (main_arg3 : FVec F S1x1024 .f32) (main_arg4 : FVec F S1x1024 .f32) (main_arg5 : FVec F S512x18 .f32) (main_arg6 : FVec F S512x18 .f32) (main_arg7 : FVec F S1x18 .f32) (main_arg8 : FVec F S1x18 .f32) (main_arg9 : FVec F S512x1 .f32) (main_arg10 : FVec F S512x1 .f32) (main_arg11 : FVec F S1x1 .f32) (main_arg12 : FVec F S1x1 .f32) (main_arg13 : FVec F S4096x4096 .f32) (main_arg14 : FVec F S4096x1024 .f32) (main_arg15 : FVec F S4096x512 .f32) (main_arg16 : FVec F S4096x18 .f32) (main_arg17 : FVec F S4096x512 .f32) (main_arg18 : FVec F S4096x1 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x4096 : Shape := ⟨2, ![4096, 4096]⟩
abbrev S4096x1024 : Shape := ⟨2, ![4096, 1024]⟩
abbrev S1x1024 : Shape := ⟨2, ![1, 1024]⟩
abbrev S512x18 : Shape := ⟨2, ![512, 18]⟩
abbrev S1x18 : Shape := ⟨2, ![1, 18]⟩
abbrev S512x1 : Shape := ⟨2, ![512, 1]⟩
abbrev S1x1 : Shape := ⟨2, ![1, 1]⟩
abbrev S4096x512 : Shape := ⟨2, ![4096, 512]⟩
abbrev S4096x18 : Shape := ⟨2, ![4096, 18]⟩
abbrev S4096x1 : Shape := ⟨2, ![4096, 1]⟩
abbrev S1024x256 : Shape := ⟨2, ![1024, 256]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩

abbrev nBuf : Space → Nat
  | .hbm => 70
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S512x18, .f32⟩
  | .hbm, ⟨6, _⟩ => ⟨S512x18, .f32⟩
  | .hbm, ⟨7, _⟩ => ⟨S1x18, .f32⟩
  | .hbm, ⟨8, _⟩ => ⟨S1x18, .f32⟩
  | .hbm, ⟨9, _⟩ => ⟨S512x1, .f32⟩
  | .hbm, ⟨10, _⟩ => ⟨S512x1, .f32⟩
  | .hbm, ⟨11, _⟩ => ⟨S1x1, .f32⟩
  | .hbm, ⟨12, _⟩ => ⟨S1x1, .f32⟩
  | .hbm, ⟨13, _⟩ => ⟨S4096x4096, .f32⟩
  | .hbm, ⟨14, _⟩ => ⟨S4096x1024, .f32⟩
  | .hbm, ⟨15, _⟩ => ⟨S4096x512, .f32⟩
  | .hbm, ⟨16, _⟩ => ⟨S4096x18, .f32⟩
  | .hbm, ⟨17, _⟩ => ⟨S4096x512, .f32⟩
  | .hbm, ⟨18, _⟩ => ⟨S4096x1, .f32⟩
  | .hbm, ⟨19, _⟩ => ⟨S4096x1024, .bf16⟩
  | .hbm, ⟨20, _⟩ => ⟨S4096x1024, .bf16⟩
  | .hbm, ⟨21, _⟩ => ⟨S4096x1024, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x18, .f32⟩
  | .hbm, ⟨29, _⟩ => ⟨S4096x18, .f32⟩
  | .hbm, ⟨30, _⟩ => ⟨S4096x18, .f32⟩
  | .hbm, ⟨31, _⟩ => ⟨S4096x18, .f32⟩
  | .hbm, ⟨32, _⟩ => ⟨S4096x18, .f32⟩
  | .hbm, ⟨33, _⟩ => ⟨S4096x512, .f32⟩
  | .hbm, ⟨34, _⟩ => ⟨S4096x18, .f32⟩
  | .hbm, ⟨35, _⟩ => ⟨S4096x18, .f32⟩
  | .hbm, ⟨36, _⟩ => ⟨S4096x18, .f32⟩
  | .hbm, ⟨37, _⟩ => ⟨S4096x18, .f32⟩
  | .hbm, ⟨38, _⟩ => ⟨S4096x18, .f32⟩
  | .hbm, ⟨39, _⟩ => ⟨S4096x18, .f32⟩
  | .hbm, ⟨40, _⟩ => ⟨S4096x18, .f32⟩
  | .hbm, ⟨41, _⟩ => ⟨S4096x18, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x512, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x18, .f32⟩
  | .hbm, ⟨67, _⟩ => ⟨S4096x18, .f32⟩
  | .hbm, ⟨68, _⟩ => ⟨S4096x18, .f32⟩
  | .hbm, ⟨69, _⟩ => ⟨S4096x18, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_v42 : Ref sig .tc := ⟨.hbm, 62, rfl⟩
abbrev main_cst_0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [BitOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v48 : BitVec 1 := Scalar.cmpi .eq arg1 c15_i32
  let v49 : BitVec 32 := Scalar.extui v48
  let c0_i32_19 : BitVec 32 := 0#32
  let v50 : BitVec 1 := Scalar.cmpi .ne v49 c0_i32_19
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  slices_S4096x1024_S4096x512_0_0 : S4096x1024.Slices ![0, 0] S4096x512
  slices_S4096x1024_S4096x512_0_512 : S4096x1024.Slices ![0, 512] S4096x512
  bcast_S1x18_S4096x18_0_1 : S1x18.BroadcastsInDim S4096x18 (![0, 1] : Fin 2 → Fin S4096x18.rank)
  bcast_S1x1_S4096x1_0_1 : S1x1.BroadcastsInDim S4096x1 (![0, 1] : Fin 2 → Fin S4096x1.rank)
  reducesTo_S4096x18_S4096_d1 : S4096x18.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x18_0_1 : S4096x1.BroadcastsInDim S4096x18 (![0, 1] : Fin 2 → Fin S4096x18.rank)
  dot_S1024x256_S256x1024_S1024x1024_1_0_0_1_n_n_wf : DotDims.WF S1024x256 S256x1024 S1024x1024 [1] [0] [0] [1] [] []
  dot_S4096x512_S512x18_S4096x18_1_0_0_1_n_n_wf : DotDims.WF S4096x512 S512x18 S4096x18 [1] [0] [0] [1] [] []
  dot_S4096x512_S512x1_S4096x1_1_0_0_1_n_n_wf : DotDims.WF S4096x512 S512x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .f32 = 32 ∨ (Rect.block (s := S4096x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .bf16 = 32 ∨ (Rect.block (s := S4096x1024) S256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .bf16 = 32 ∨ (Rect.block (s := S4096x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x1024.size a
  hwx0_4 : ∀ i : grid0.Coords, EltTy.bits .f32 = 32 ∨ (Rect.block (s := S4096x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x1024.size a
  hwx0_7 : ∀ i : grid0.Coords, EltTy.bits .f32 = 32 ∨ (Rect.block (s := S4096x1024) S1024x1024.size (cc0_transform_7 i) (hinb0_7 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S4096x512_S512x18_S4096x18_1_0_0_1_n_n : DotDims S4096x512 S512x18 S4096x18 where
  lhsContracting := [1]
  rhsContracting := [0]
  lhsNonContracting := [0]
  rhsNonContracting := [1]
  lhsBatch := []
  rhsBatch := []
  wf := dot_S4096x512_S512x18_S4096x18_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg13) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg14) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x1024 : Shape := ⟨2, ![4096, 1024]⟩
abbrev S1x1024 : Shape := ⟨2, ![1, 1024]⟩
abbrev S512x18 : Shape := ⟨2, ![512, 18]⟩
abbrev S1x18 : Shape := ⟨2, ![1, 18]⟩
abbrev S512x1 : Shape := ⟨2, ![512, 1]⟩
abbrev S1x1 : Shape := ⟨2, ![1, 1]⟩
abbrev S4096x512 : Shape := ⟨2, ![4096, 512]⟩
abbrev S4096x18 : Shape := ⟨2, ![4096, 18]⟩
abbrev S4096x1 : Shape := ⟨2, ![4096, 1]⟩
abbrev S_ : Shape := ⟨0, ![]⟩
abbrev S4096 : Shape := ⟨1, ![4096]⟩

abbrev nBuf : Space → Nat
  | .hbm => 88
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S512x18, .f32⟩
  | .hbm, ⟨6, _⟩ => ⟨S512x18, .f32⟩
  | .hbm, ⟨7, _⟩ => ⟨S1x18, .f32⟩
  | .hbm, ⟨8, _⟩ => ⟨S1x18, .f32⟩
  | .hbm, ⟨9, _⟩ => ⟨S512x1, .f32⟩
  | .hbm, ⟨10, _⟩ => ⟨S512x1, .f32⟩
  | .hbm, ⟨11, _⟩ => ⟨S1x1, .f32⟩
  | .hbm, ⟨12, _⟩ => ⟨S1x1, .f32⟩
  | .hbm, ⟨13, _⟩ => ⟨S4096x4096, .f32⟩
  | .hbm, ⟨14, _⟩ => ⟨S4096x1024, .f32⟩
  | .hbm, ⟨15, _⟩ => ⟨S4096x512, .f32⟩
  | .hbm, ⟨16, _⟩ => ⟨S4096x18, .f32⟩
  | .hbm, ⟨17, _⟩ => ⟨S4096x512, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x18, .f32⟩
  | .hbm, ⟨47, _⟩ => ⟨S4096x18, .f32⟩
  | .hbm, ⟨48, _⟩ => ⟨S4096x18, .f32⟩
  | .hbm, ⟨49, _⟩ => ⟨S4096x18, .f32⟩
  | .hbm, ⟨50, _⟩ => ⟨S4096x18, .f32⟩
  | .hbm, ⟨51, _⟩ => ⟨S4096x512, .f32⟩
  | .hbm, ⟨52, _⟩ => ⟨S4096x18, .f32⟩
  | .hbm, ⟨53, _⟩ => ⟨S4096x18, .f32⟩
  | .hbm, ⟨54, _⟩ => ⟨S4096x18, .f32⟩
  | .hbm, ⟨55, _⟩ => ⟨S4096x18, .f32⟩
  | .hbm, ⟨56, _⟩ => ⟨S4096x18, .f32⟩
  | .hbm, ⟨57, _⟩ => ⟨S4096x18, .f32⟩
  | .hbm, ⟨58, _⟩ => ⟨S4096x18, .f32⟩
  | .hbm, ⟨59, _⟩ => ⟨S4096x18, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096x512, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S4096x18, .f32⟩
  | .hbm, ⟨85, _⟩ => ⟨S4096x18, .f32⟩
  | .hbm, ⟨86, _⟩ => ⟨S4096x18, .f32⟩
  | .hbm, ⟨87, _⟩ => ⟨S4096x18, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call0_cst : Ref sig .tc := ⟨.hbm, 37, rfl⟩
abbrev main_call0_v0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst : Ref sig .tc := ⟨.hbm, 78, rfl⟩
abbrev main_v57 : Ref sig .tc := ⟨.hbm, 79, rfl⟩
abbrev main_v58 : Ref sig .tc := ⟨.hbm, 80, rfl⟩
abbrev main_cst_0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]

class Facts₀ : Prop where
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  slices_S4096x1024_S4096x512_0_0 : S4096x1024.Slices ![0, 0] S4096x512
  slices_S4096x1024_S4096x512_0_512 : S4096x1024.Slices ![0, 512] S4096x512
  bcast_S1x18_S4096x18_0_1 : S1x18.BroadcastsInDim S4096x18 (![0, 1] : Fin 2 → Fin S4096x18.rank)
  bcast_S1x1_S4096x1_0_1 : S1x1.BroadcastsInDim S4096x1 (![0, 1] : Fin 2 → Fin S4096x1.rank)
  reducesTo_S4096x18_S4096_d1 : S4096x18.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x18_0_1 : S4096x1.BroadcastsInDim S4096x18 (![0, 1] : Fin 2 → Fin S4096x18.rank)
  dot_S4096x4096_S4096x1024_S4096x1024_1_0_0_1_n_n_wf : DotDims.WF S4096x4096 S4096x1024 S4096x1024 [1] [0] [0] [1] [] []
  dot_S4096x512_S512x18_S4096x18_1_0_0_1_n_n_wf : DotDims.WF S4096x512 S512x18 S4096x18 [1] [0] [0] [1] [] []
  dot_S4096x512_S512x1_S4096x1_1_0_0_1_n_n_wf : DotDims.WF S4096x512 S512x1 S4096x1 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x512_S512x18_S4096x18_1_0_0_1_n_n : DotDims S4096x512 S512x18 S4096x18 where
  lhsContracting := [1]
  rhsContracting := [0]
  lhsNonContracting := [0]
  rhsNonContracting := [1]
  lhsBatch := []
  rhsBatch := []
  wf := dot_S4096x512_S512x18_S4096x18_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

class Facts : Prop extends Facts₀ where

variable [Facts]
-- ==== Proof.KernelCases.lean ====
/-
  One grid point of the hidden layer's kernel, as values. The grid is (row tile m, contraction block k), k innermost;
  a 1024×1024 accumulator is carried from block to block. At every point the body adds to the accumulator
  x_blk·W_blk + fout ⊙ ((x_blk ⊙ fin_blk)·S_blk), where fin and fout are sign(e)·√|e| of the two noise blocks; at k = 0 the
  accumulator is zeroed first, and at the last k the output block is max(acc + b + bs ⊙ fout, 0). Stated here for any
  float instance: what each of the three control cases leaves in the carried accumulator and in the output block is
  the corresponding composition of the body's pure terms.
-/
import proofs.«117930_j62053687493050_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Bridge

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (arg2 : Memref sig .tc .vmem S1024x256 .f32) (harg2 : arg2.IsWhole) (arg3 : Memref sig .tc .vmem S1024x256 .f32) (harg3 : arg3.IsWhole)
  (arg4 : Memref sig .tc .vmem S256x1024 .bf16) (harg4 : arg4.IsWhole) (arg5 : Memref sig .tc .vmem S256x1024 .bf16) (harg5 : arg5.IsWhole)
  (arg6 : Memref sig .tc .vmem S1024x1024 .f32) (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1024x1024 .f32) (harg9 : arg9.IsWhole)
  (arg10 : Memref sig .tc .vmem S1024x1024 .f32) (harg10 : arg10.IsWhole)
  (x0 x1 : Vec F S1024x256 .f32) (x2 x3 : Vec F S256x1024 .bf16) (x4 : Vec F S1024x1024 .f32) (x5 x6 : Vec F S1x1024 .f32) (xs0 : Vec F S1024x1024 .f32)

/-- The body's arithmetic on one grid point, as one term over the seven input blocks and the accumulator found in the
    scratch: the accumulator plus (x·W over the block) plus fout ⊙ ((x ⊙ fin)·S over the block). -/
abbrev stepAcc (x0 x1 : Vec F S1024x256 .f32) (x2 x3 : Vec F S256x1024 .bf16) (x4 : Vec F S1024x1024 .f32) (acc : Vec F S1024x1024 .f32) :
    Vec F S1024x1024 .f32 :=
  k0_pay1 (k0_pay4 x4) (k0_pay5 x0 x2) (k0_pay6 x0 x1 x3) acc

/-- At a middle block of the contraction the scratch ends at the step applied to what it held. -/
theorem sout_B (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 x3 x4 x5 x6 xs0
      = stepAcc x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  simp only [View.readAt_eq_ld, harg2.read_unread, harg3.read_unread, harg4.read_unread, harg5.read_unread, harg6.read_unread,
    harg10.read_unread, View.ld_unit_zero (S := S1024x1024) hz, View.ld_unit_zero (S := S1024x256) hz,
    View.ld_unit_zero (S := S256x1024) hz]

/-- At the last block of the contraction the scratch ends at the same step. -/
theorem sout_C (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 x3 x4 x5 x6 xs0
      = stepAcc x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread,
    harg10.read_unread, View.ld_unit_zero (S := S1024x1024) hz, View.ld_unit_zero (S := S1024x256) hz,
    View.ld_unit_zero (S := S256x1024) hz]

/-- and the output block is the bias, the noisy bias and the rectifier applied to that accumulator. -/
theorem out_C (hc0 : ¬cond0_0 i) (hc1 : cond0_1 i) :
    out0_C_7 c i arg2 harg2 arg3 harg3 arg4 harg4 arg5 harg5 arg6 harg6 arg7 harg7 arg8 harg8 arg9 harg9 arg10 harg10 hc0 hc1 x0 x1 x2 x3 x4 x5 x6 xs0
      = k0_pay2 (k0_pay4 x4) (stepAcc x0 x1 x2 x3 x4 xs0) x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S1024x1024) _ hz]
  simp only [View.readAt_eq_ld, harg2.read_unread, harg3.read_unread, harg4.read_unread, harg5.read_unread, harg6.read_unread,
    harg7.read_unread, harg8.read_unread, harg10.read_unread, View.ld_unit_zero (S := S1024x1024) hz,
    View.ld_unit_zero (S := S1024x256) hz, View.ld_unit_zero (S := S256x1024) hz, View.ld_unit_zero (S := S1x1024) hz]

/-- At the first block of the contraction the scratch is zeroed first: the step applied to the zero block. -/
theorem sout_A (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 x5 x6
      = stepAcc x0 x1 x2 x3 x4 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, harg4.read_unread, harg5.read_unread, harg6.read_unread,
    View.ld_unit_zero (S := S1024x1024) hz, View.ld_unit_zero (S := S1024x256) hz, View.ld_unit_zero (S := S256x1024) hz]

end Cert.Bridge
end
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.KernelStep.lean ====
/-
  The body's arithmetic, entry by entry, on the extended reals. The kernel spells sign(e) as "±1 by e < 0 where |e| > 0,
  else e"; multiplied by √|e| this is sign(e)·√|e| for every extended real (at 0 both vanish), the host's spelling. A block
  product into the zero accumulator is the sum over the 256 shared positions; a change of float format is the identity.
  So one step adds, at entry (p, q), Σ_u x(p,u)·W(u,q) + fout(p,q)·Σ_u (x(p,u)·fin(p,u))·S(u,q) to the accumulator, and the
  output block is max((acc + b) + bs·fout, 0).
-/
import proofs.«117930_j62053687493050_2_alg».proof.Proof.KernelCases
import proofs.«117930_j62053687493050_2_alg».proof.Proof.LibDenseRows
import Idealize.ShloMosaic.PureOps.Ideal.Laws
import Idealize.ShloMosaic.PureOps.IdealRules
import Idealize.ShloMosaic.Lib.ValueIdx
import Idealize.ShloMosaic.Lib.ValueLayout

noncomputable section

open Idealize.ShloMosaic Idealize.ShloMosaic.TcCoe Idealize.ShloMosaic.ValueIdx

namespace Cert.Bridge

open Cert.KernelIdeal Cert.KernelIdeal.Gen

/-- The noise scaling of one entry, sign(e)·√|e|, on the extended reals. -/
def nz (e : EReal) : EReal := Ideal.sign e * Ideal.sqrt (max e (-e))

theorem ofBits_one : Ideal.ofBits .f32 0x3F800000#32 = 1 := IdealRules.sign_bit.ideal_onePat .f32
theorem ofBits_negOne : Ideal.ofBits .f32 0xBF800000#32 = -1 := IdealRules.sign_bit.ideal_negOnePat .f32

/-- The kernel spells the sign as "±1 by e < 0 where |e| > 0, else e itself"; times √|e| that is sign(e)·√|e| at every
    extended real: at 0 both are 0, elsewhere the first factor is the sign. -/
theorem kernel_noise (e : EReal) :
    (Scalar.select (Ideal.cmp .ogt (max e (-e)) (Ideal.ofBits .f32 0x00000000#32))
        (Scalar.select (Ideal.cmp .olt e (Ideal.ofBits .f32 0x00000000#32)) (Ideal.ofBits .f32 0xBF800000#32) (Ideal.ofBits .f32 0x3F800000#32)) e)
      * Ideal.sqrt (max e (-e)) = nz e := by
  rw [Ideal.ofBits_zero_f32, ofBits_one, ofBits_negOne]
  unfold nz
  induction e using EReal.rec with
  | bot => simp [Ideal.cmp, Scalar.select]
  | top => simp [Ideal.cmp, Scalar.select]
  | coe r =>
    rcases lt_trichotomy r 0 with h | h | h
    · have h1 : (0 : EReal) < max (r : EReal) (-(r : EReal)) :=
        lt_max_of_lt_right (by rw [← EReal.coe_neg]; exact_mod_cast (neg_pos.mpr h))
      have h2 : (r : EReal) < 0 := by exact_mod_cast h
      simp [Ideal.cmp, Scalar.select, h1, h2, sign_neg h]
    · subst h
      have h0 : Ideal.sign 0 = 0 := by rw [← EReal.coe_zero, Ideal.sign_coe]; simp
      simp [Ideal.cmp, Scalar.select, h0]
    · have h1 : (0 : EReal) < max (r : EReal) (-(r : EReal)) := lt_max_of_lt_left (by exact_mod_cast h)
      have h2 : ¬ (r : EReal) < 0 := not_lt.mpr (by exact_mod_cast h.le)
      simp [Ideal.cmp, Scalar.select, h1, h2, sign_pos h]

theorem pay3_apply (y : S1024x1024.Idx) : k0_pay3 (F := Ideal) y = 0 := by
  unfold k0_pay3
  rw [shapeCast_self]
  exact Ideal.ofBits_zero_f32

theorem pay4_apply (x4 : Vec Ideal S1024x1024 .f32) (y : S1024x1024.Idx) : k0_pay4 (F := Ideal) x4 y = nz (x4 y) :=
  kernel_noise (x4 y)

/-- The contraction of a [1024,256] block with a [256,1024] block: its operand indices. -/
local notation "DK" => dot_S1024x256_S256x1024_S1024x1024_1_0_0_1_n_n

/-- A [1024,256] block times a [256,1024] block into the zero accumulator, at an entry. -/
theorem blockMatmul_apply (L : FVec Ideal S1024x256 .bf16) (R : FVec Ideal S256x1024 .bf16) (p q : Fin 1024) :
    matmul dot_S1024x256_S256x1024_S1024x1024_1_0_0_1_n_n none L R (constant S1024x1024 .f32 0x00000000#32) (ix2 p q)
      = ∑ u : Fin 256, L (ix2 p u) * R (ix2 u q) :=
  Cert.DenseRows.matmul_rows_apply dot_S1024x256_S256x1024_S1024x1024_1_0_0_1_n_n rfl rfl (fun _ _ => rfl) (fun _ _ => rfl) (fun _ _ => rfl) (fun _ _ => rfl) none L R p q

theorem pay5_apply (x0 : Vec Ideal S1024x256 .f32) (x2 : Vec Ideal S256x1024 .bf16) (p q : Fin 1024) :
    k0_pay5 (F := Ideal) x0 x2 (ix2 p q) = ∑ u : Fin 256, x0 (ix2 p u) * x2 (ix2 u q) := by
  unfold k0_pay5
  rw [shapeCast_self, blockMatmul_apply]
  rfl

theorem pay6_apply (x0 x1 : Vec Ideal S1024x256 .f32) (x3 : Vec Ideal S256x1024 .bf16) (p q : Fin 1024) :
    k0_pay6 (F := Ideal) x0 x1 x3 (ix2 p q) = ∑ u : Fin 256, (x0 (ix2 p u) * nz (x1 (ix2 p u))) * x3 (ix2 u q) := by
  unfold k0_pay6
  rw [shapeCast_self, blockMatmul_apply]
  refine Finset.sum_congr rfl fun u _ => ?_
  exact congrArg (fun z => x0 (ix2 p u) * z * x3 (ix2 u q)) (kernel_noise (x1 (ix2 p u)))

/-- One step of the accumulation at an entry: the accumulator plus the block's x·W plus fout times the block's (x ⊙ fin)·S. -/
theorem stepAcc_apply (x0 x1 : Vec Ideal S1024x256 .f32) (x2 x3 : Vec Ideal S256x1024 .bf16) (x4 acc : Vec Ideal S1024x1024 .f32)
    (p q : Fin 1024) :
    stepAcc x0 x1 x2 x3 x4 acc (ix2 p q)
      = acc (ix2 p q) + ((∑ u : Fin 256, x0 (ix2 p u) * x2 (ix2 u q))
          + nz (x4 (ix2 p q)) * ∑ u : Fin 256, (x0 (ix2 p u) * nz (x1 (ix2 p u))) * x3 (ix2 u q)) := by
  unfold stepAcc k0_pay1
  rw [shapeCast_self]
  show acc (ix2 p q) + (k0_pay5 x0 x2 (ix2 p q) + k0_pay4 x4 (ix2 p q) * k0_pay6 x0 x1 x3 (ix2 p q)) = _
  rw [pay5_apply, pay4_apply, pay6_apply]

/-- The output block at an entry: the accumulator plus the bias row plus the noisy bias row times fout, rectified. -/
theorem pay2_apply (f a : Vec Ideal S1024x1024 .f32) (b bs : Vec Ideal S1x1024 .f32) (p q : Fin 1024) :
    k0_pay2 (F := Ideal) f a b bs (ix2 p q)
      = max ((a (ix2 p q) + b (ix2 (0 : Fin 1) q)) + bs (ix2 (0 : Fin 1) q) * f (ix2 p q)) 0 := by
  unfold k0_pay2
  show max ((a (ix2 p q) + broadcastTo S1024x1024 b broadcasts_S1x1024_S1024x1024 (ix2 p q))
      + broadcastTo S1024x1024 bs broadcasts_S1x1024_S1024x1024 (ix2 p q) * f (ix2 p q)) (Ideal.ofBits .f32 0x00000000#32) = _
  rw [broadcastTo_1b_ab_apply, broadcastTo_1b_ab_apply, Ideal.ofBits_zero_f32]

end Cert.Bridge
end
-- ==== Proof.KernelBlocks.lean ====
/-
  Where each window's block sits in its array. Grid point t is row tile t / 16 and contraction block t % 16. The blocks of
  x and e_in at t are rows 1024·(t/16) + p, columns 256·(t%16) + u; those of the two weight matrices are rows
  256·(t%16) + u, all 1024 columns; the block of e_out is rows 1024·(t/16) + p, all columns; the two bias rows are whole.
  Before the region the weight matrices are converted to bf16 (at the extended reals: unchanged).
-/
import proofs.«117930_j62053687493050_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Bridge

open Cert.KernelIdeal Cert.KernelIdeal.Gen

variable {F : FTy → Type} [FloatOps F]
variable (m : (ℓ : Loc nD τ sig) → Buf (Elt F) ℓ)

/-- Point t of the grid is row tile t / 16 and contraction block t % 16: the windows' block indices over the grid. -/
theorem index0 : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)

theorem iblk0_apply (c : Dev nD) (t : Fin cfg0.N) (p : Fin 1024) (u : Fin 256) (r d : Fin 4096)
    (hr : r.val = 1024 * (t.val / 16) + p.val) (hd : d.val = 256 * (t.val % 16) + u.val) :
    (iblk m c 0 t : Vec F S1024x256 .f32) (ix2 p u) = V m c main_arg0 (ix2 r d) := by
  unfold iblk
  rw [View.read_apply]
  show V m c main_arg0 _ = V m c main_arg0 _
  congr 1
  funext a
  apply Fin.ext
  match a with
  | ⟨0, _⟩ => show win0_0.index t 0 * 1024 + 1 * p.val = r.val; rw [(index0 t).1, hr]; omega
  | ⟨1, _⟩ => show win0_0.index t 1 * 256 + 1 * u.val = d.val; rw [(index0 t).2, hd]; omega

theorem index1 : ∀ t : Fin cfg0.N, win0_1.index t 0 = t.val / 16 ∧ win0_1.index t 1 = t.val % 16 :=
  (by decide +kernel : ∀ t : Fin grid0.N, win0_1.index t 0 = t.val / 16 ∧ win0_1.index t 1 = t.val % 16)
theorem index2 : ∀ t : Fin cfg0.N, win0_2.index t 0 = t.val % 16 ∧ win0_2.index t 1 = 0 :=
  (by decide +kernel : ∀ t : Fin grid0.N, win0_2.index t 0 = t.val % 16 ∧ win0_2.index t 1 = 0)
theorem index3 : ∀ t : Fin cfg0.N, win0_3.index t 0 = t.val % 16 ∧ win0_3.index t 1 = 0 :=
  (by decide +kernel : ∀ t : Fin grid0.N, win0_3.index t 0 = t.val % 16 ∧ win0_3.index t 1 = 0)
theorem index4 : ∀ t : Fin cfg0.N, win0_4.index t 0 = t.val / 16 ∧ win0_4.index t 1 = 0 :=
  (by decide +kernel : ∀ t : Fin grid0.N, win0_4.index t 0 = t.val / 16 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = t.val / 16 ∧ win0_7.index t 1 = 0 :=
  (by decide +kernel : ∀ t : Fin grid0.N, win0_7.index t 0 = t.val / 16 ∧ win0_7.index t 1 = 0)

theorem iblk1_apply (c : Dev nD) (t : Fin cfg0.N) (p : Fin 1024) (u : Fin 256) (r d : Fin 4096)
    (hr : r.val = 1024 * (t.val / 16) + p.val) (hd : d.val = 256 * (t.val % 16) + u.val) :
    (iblk m c 1 t : Vec F S1024x256 .f32) (ix2 p u) = V m c main_arg13 (ix2 r d) := by
  unfold iblk
  rw [View.read_apply]
  show V m c main_arg13 _ = V m c main_arg13 _
  congr 1
  funext a
  apply Fin.ext
  match a with
  | ⟨0, _⟩ => show win0_1.index t 0 * 1024 + 1 * p.val = r.val; rw [(index1 t).1, hr]; omega
  | ⟨1, _⟩ => show win0_1.index t 1 * 256 + 1 * u.val = d.val; rw [(index1 t).2, hd]; omega

theorem iblk2_apply (c : Dev nD) (t : Fin cfg0.N) (u : Fin 256) (q : Fin 1024) (d : Fin 4096)
    (hd : d.val = 256 * (t.val % 16) + u.val) :
    (iblk m c 2 t : Vec F S256x1024 .bf16) (ix2 u q) = V m c main_v0 (ix2 d q) := by
  unfold iblk
  rw [View.read_apply]
  show V m c main_v0 _ = V m c main_v0 _
  congr 1
  funext a
  apply Fin.ext
  match a with
  | ⟨0, _⟩ => show win0_2.index t 0 * 256 + 1 * u.val = d.val; rw [(index2 t).1, hd]; omega
  | ⟨1, _⟩ => show win0_2.index t 1 * 1024 + 1 * q.val = q.val; rw [(index2 t).2]; omega

theorem iblk3_apply (c : Dev nD) (t : Fin cfg0.N) (u : Fin 256) (q : Fin 1024) (d : Fin 4096)
    (hd : d.val = 256 * (t.val % 16) + u.val) :
    (iblk m c 3 t : Vec F S256x1024 .bf16) (ix2 u q) = V m c main_v1 (ix2 d q) := by
  unfold iblk
  rw [View.read_apply]
  show V m c main_v1 _ = V m c main_v1 _
  congr 1
  funext a
  apply Fin.ext
  match a with
  | ⟨0, _⟩ => show win0_3.index t 0 * 256 + 1 * u.val = d.val; rw [(index3 t).1, hd]; omega
  | ⟨1, _⟩ => show win0_3.index t 1 * 1024 + 1 * q.val = q.val; rw [(index3 t).2]; omega

theorem iblk4_apply (c : Dev nD) (t : Fin cfg0.N) (p q : Fin 1024) (r : Fin 4096)
    (hr : r.val = 1024 * (t.val / 16) + p.val) :
    (iblk m c 4 t : Vec F S1024x1024 .f32) (ix2 p q) = V m c main_arg14 (ix2 r q) := by
  unfold iblk
  rw [View.read_apply]
  show V m c main_arg14 _ = V m c main_arg14 _
  congr 1
  funext a
  apply Fin.ext
  match a with
  | ⟨0, _⟩ => show win0_4.index t 0 * 1024 + 1 * p.val = r.val; rw [(index4 t).1, hr]; omega
  | ⟨1, _⟩ => show win0_4.index t 1 * 1024 + 1 * q.val = q.val; rw [(index4 t).2]; omega

theorem iblk5_apply (c : Dev nD) (t : Fin cfg0.N) (q : Fin 1024) :
    (iblk m c 5 t : Vec F S1x1024 .f32) (ix2 (0 : Fin 1) q) = V m c main_arg3 (ix2 (0 : Fin 1) q) := by
  unfold iblk
  rw [View.read_apply]
  show V m c main_arg3 _ = V m c main_arg3 _
  congr 1
  funext a
  apply Fin.ext
  match a with
  | ⟨0, _⟩ => show win0_5.index t 0 * 1 + 1 * 0 = 0; rw [(index5 t).1]
  | ⟨1, _⟩ => show win0_5.index t 1 * 1024 + 1 * q.val = q.val; rw [(index5 t).2]; omega

theorem iblk6_apply (c : Dev nD) (t : Fin cfg0.N) (q : Fin 1024) :
    (iblk m c 6 t : Vec F S1x1024 .f32) (ix2 (0 : Fin 1) q) = V m c main_arg4 (ix2 (0 : Fin 1) q) := by
  unfold iblk
  rw [View.read_apply]
  show V m c main_arg4 _ = V m c main_arg4 _
  congr 1
  funext a
  apply Fin.ext
  match a with
  | ⟨0, _⟩ => show win0_6.index t 0 * 1 + 1 * 0 = 0; rw [(index6 t).1]
  | ⟨1, _⟩ => show win0_6.index t 1 * 1024 + 1 * q.val = q.val; rw [(index6 t).2]; omega

/-- Before the region the two weight matrices are converted to bf16. -/
theorem V_v0 (c : Dev nD) :
    (V m c main_v0 : S4096x1024.Idx → F .bf16) = truncf .bf16 (m ((c : Thread nD τ).loc main_arg1)) bitsLt_bf16_f32 := by
  show StableHlo.after hostOps0 (fun b => m (c, b)) (Proc.devRef .tc main_v0) = _
  after_results

theorem V_v1 (c : Dev nD) :
    (V m c main_v1 : S4096x1024.Idx → F .bf16) = truncf .bf16 (m ((c : Thread nD τ).loc main_arg2)) bitsLt_bf16_f32 := by
  show StableHlo.after hostOps0 (fun b => m (c, b)) (Proc.devRef .tc main_v1) = _
  after_results

end Cert.Bridge
end
-- ==== Proof.KernelAcc.lean ====
/-
  The hidden layer as the kernel leaves it in its result array. The carried accumulator after grid point n holds, at
  entry (p, q) of the tile, the sum of the contributions of contraction blocks 0 … n % 16 to entry (1024·(n/16) + p, q) of
  the layer (induction on the point: the first block of a row tile starts from the zeroed accumulator, every later one adds
  to what the point before left). At the last block the output tile is max(acc + b + bs·fout, 0), it is written back there
  and only there, and the sixteen-by-four written tiles cover the [4096, 1024] array. No arithmetic law is used here beyond
  reading sums in the order the kernel takes them.
-/
import proofs.«117930_j62053687493050_2_alg».proof.Proof.KernelStep
import proofs.«117930_j62053687493050_2_alg».proof.Proof.KernelBlocks

set_option maxRecDepth 16384

noncomputable section

open Idealize.ShloMosaic Idealize.ShloMosaic.TcCoe Idealize.SL.Sem Idealize.ShloMosaic.ValueIdx
open Idealize.ShloMosaic.Pipeline (Dat)

namespace Cert.Bridge

open Cert.KernelIdeal Cert.KernelIdeal.Gen

/-- Position u of contraction block k along the 4096 contracted positions. -/
def col (k : ℕ) (u : Fin 256) : Fin 4096 := ⟨(256 * k + u.val) % 4096, Nat.mod_lt _ (by norm_num)⟩

theorem col_val (k : ℕ) (hk : k < 16) (u : Fin 256) : (col k u).val = 256 * k + u.val :=
  Nat.mod_eq_of_lt (by have := u.isLt; omega)

/-- What contraction block k adds to entry (r, q) of the hidden layer before bias and rectifier. -/
def term (X E : S4096x4096.Idx → Ideal .f32) (W S : S4096x1024.Idx → Ideal .bf16) (Eo : S4096x1024.Idx → Ideal .f32)
    (r : Fin 4096) (q : Fin 1024) (k : ℕ) : EReal :=
  (∑ u : Fin 256, X (ix2 r (col k u)) * W (ix2 (col k u) q))
    + nz (Eo (ix2 r q)) * ∑ u : Fin 256, (X (ix2 r (col k u)) * nz (E (ix2 r (col k u)))) * S (ix2 (col k u) q)

variable (m : (ℓ : Loc nD τ sig) → Buf (Elt Ideal) ℓ) (c : Dev nD)

/-- The arrays the region finds: x, e_in, the two converted weight matrices, e_out, the two bias rows. -/
abbrev aX : S4096x4096.Idx → Ideal .f32 := V m c main_arg0
abbrev aE : S4096x4096.Idx → Ideal .f32 := V m c main_arg13
abbrev aW : S4096x1024.Idx → Ideal .bf16 := V m c main_v0
abbrev aS : S4096x1024.Idx → Ideal .bf16 := V m c main_v1
abbrev aEo : S4096x1024.Idx → Ideal .f32 := V m c main_arg14
abbrev aB : S1x1024.Idx → Ideal .f32 := V m c main_arg3
abbrev aBs : S1x1024.Idx → Ideal .f32 := V m c main_arg4

/-- One step over blocks that are known, entry by entry, to be pieces of the arrays: it adds the block's contribution. -/
theorem step_of (x0 x1 : Vec Ideal S1024x256 .f32) (x2 x3 : Vec Ideal S256x1024 .bf16) (x4 acc : Vec Ideal S1024x1024 .f32)
    (X E : S4096x4096.Idx → Ideal .f32) (W S : S4096x1024.Idx → Ideal .bf16) (Eo : S4096x1024.Idx → Ideal .f32)
    (p q : Fin 1024) (r : Fin 4096) (k : ℕ)
    (h0 : ∀ u, x0 (ix2 p u) = X (ix2 r (col k u))) (h1 : ∀ u, x1 (ix2 p u) = E (ix2 r (col k u)))
    (h2 : ∀ u, x2 (ix2 u q) = W (ix2 (col k u) q)) (h3 : ∀ u, x3 (ix2 u q) = S (ix2 (col k u) q))
    (h4 : x4 (ix2 p q) = Eo (ix2 r q)) :
    stepAcc x0 x1 x2 x3 x4 acc (ix2 p q) = acc (ix2 p q) + term X E W S Eo r q k := by
  rw [stepAcc_apply]
  unfold term
  simp only [h0, h1, h2, h3, h4]

/-- One step at grid point t, read in the arrays: entry (p, q) of the tile is entry (r, q) of the layer, r = 1024·(t/16) + p,
    and the step adds contraction block t % 16's contribution. -/
theorem step_at (t : Fin cfg0.N) (acc : Vec Ideal S1024x1024 .f32) (p q : Fin 1024) (r : Fin 4096)
    (hr : r.val = 1024 * (t.val / 16) + p.val) :
    stepAcc (iblk m c 0 t) (iblk m c 1 t) (iblk m c 2 t) (iblk m c 3 t) (iblk m c 4 t) acc (ix2 p q)
      = acc (ix2 p q) + term (aX m c) (aE m c) (aW m c) (aS m c) (aEo m c) r q (t.val % 16) :=
  have hk : t.val % 16 < 16 := Nat.mod_lt _ (by norm_num)
  step_of (iblk m c 0 t) (iblk m c 1 t) (iblk m c 2 t) (iblk m c 3 t) (iblk m c 4 t) acc
    (aX m c) (aE m c) (aW m c) (aS m c) (aEo m c) p q r (t.val % 16)
    (fun u => iblk0_apply m c t p u r (col (t.val % 16) u) hr (col_val _ hk u))
    (fun u => iblk1_apply m c t p u r (col (t.val % 16) u) hr (col_val _ hk u))
    (fun u => iblk2_apply m c t u q (col (t.val % 16) u) (col_val _ hk u))
    (fun u => iblk3_apply m c t u q (col (t.val % 16) u) (col_val _ hk u))
    (iblk4_apply m c t p q r hr)

/-- After grid point n the carried accumulator holds, at entry (p, q) of the tile, the contributions of contraction blocks
    0 … n % 16 to entry (r, q) of the layer, r = 1024·(n/16) + p: by induction on the point, the first block of a row tile
    starting from the zeroed accumulator and every later block adding to what the point before left. -/
theorem acc_eq : ∀ (n : ℕ) (h : n < cfg0.N) (p q : Fin 1024) (r : Fin 4096), r.val = 1024 * (n / 16) + p.val →
    (outsAt0 m c n h).2 (ix2 p q)
      = ∑ k ∈ Finset.range (n % 16 + 1), term (aX m c) (aE m c) (aW m c) (aS m c) (aEo m c) r q k
  | 0, h, p, q, r, hr => by
    rw [outsAt0_A m c (⟨0, h⟩ : Fin cfg0.N) rfl (by simp)]
    dsimp only
    refine (congrFun (sout_A c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) _ _) (ix2 p q)).trans ?_
    rw [step_at m c (⟨0, h⟩ : Fin cfg0.N) (k0_pay3 (F := Ideal)) p q r hr, pay3_apply, zero_add]
    simp
  | n + 1, h, p, q, r, hr => by
    have hN : cfg0.N = 64 := N_0
    by_cases h0 : (n + 1) % 16 = 0
    · have h1 : ¬(n + 1) % 16 = 15 := by omega
      rw [outsAt0_A m c (⟨n + 1, h⟩ : Fin cfg0.N) h0 h1]
      dsimp only
      refine (congrFun (sout_A c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) _ _) (ix2 p q)).trans ?_
      rw [step_at m c (⟨n + 1, h⟩ : Fin cfg0.N) (k0_pay3 (F := Ideal)) p q r hr, pay3_apply, zero_add]
      show term _ _ _ _ _ r q ((n + 1) % 16) = _
      rw [h0]
      simp
    · have ih := acc_eq n (by omega) p q r (by omega)
      have e : (n + 1) % 16 = n % 16 + 1 := by omega
      have hs : ∑ k ∈ Finset.range ((n + 1) % 16 + 1), term (aX m c) (aE m c) (aW m c) (aS m c) (aEo m c) r q k
          = (∑ k ∈ Finset.range (n % 16 + 1), term (aX m c) (aE m c) (aW m c) (aS m c) (aEo m c) r q k)
            + term (aX m c) (aE m c) (aW m c) (aS m c) (aEo m c) r q ((n + 1) % 16) := by
        rw [Finset.sum_range_succ]
        exact congrArg (fun z => (∑ k ∈ Finset.range z, term (aX m c) (aE m c) (aW m c) (aS m c) (aEo m c) r q k)
          + term (aX m c) (aE m c) (aW m c) (aS m c) (aEo m c) r q ((n + 1) % 16)) e
      by_cases h1 : (n + 1) % 16 = 15
      · rw [outsAt0_C m c (⟨n + 1, h⟩ : Fin cfg0.N) h0 h1]
        dsimp only
        refine (congrFun (sout_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2 _ _) (ix2 p q)).trans ?_
        rw [step_at m c (⟨n + 1, h⟩ : Fin cfg0.N) _ p q r hr, hs]
        exact congrArg₂ (· + ·) ih rfl
      · rw [outsAt0_B m c (⟨n + 1, h⟩ : Fin cfg0.N) h0 h1]
        dsimp only
        refine (congrFun (sout_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2 _ _) (ix2 p q)).trans ?_
        rw [step_at m c (⟨n + 1, h⟩ : Fin cfg0.N) _ p q r hr, hs]
        exact congrArg₂ (· + ·) ih rfl

/-- The hidden layer as the kernel computes it, as one function of the arrays the region finds: at (r, q), the sixteen
    contraction blocks' contributions in order, plus the bias, plus the noisy bias times fout, rectified. -/
def featK (X E : S4096x4096.Idx → Ideal .f32) (W S : S4096x1024.Idx → Ideal .bf16) (Eo : S4096x1024.Idx → Ideal .f32)
    (B Bs : S1x1024.Idx → Ideal .f32) : S4096x1024.Idx → Ideal .f32 := fun i =>
  max (((∑ k ∈ Finset.range 16, term X E W S Eo (i 0) (i 1) k) + B (ix2 (0 : Fin 1) (i 1)))
    + Bs (ix2 (0 : Fin 1) (i 1)) * nz (Eo (ix2 (i 0) (i 1)))) 0

/-- At the last contraction block of a row tile the output block holds, at (p, q), `featK` at (r, q), r = 1024·(t/16) + p. -/
theorem out_eq (t : Fin cfg0.N) (h1 : t.val % 16 = 15) (p q : Fin 1024) (r : Fin 4096) (hr : r.val = 1024 * (t.val / 16) + p.val) :
    (outsAt0 m c t.val t.isLt).1 (ix2 p q)
      = featK (aX m c) (aE m c) (aW m c) (aS m c) (aEo m c) (aB m c) (aBs m c) (ix2 r q) := by
  have h0 : ¬t.val % 16 = 0 := by omega
  have hacc := acc_eq m c t.val t.isLt p q r hr
  rw [outsAt0_C m c t h0 h1] at hacc
  dsimp only at hacc
  have hS := (congrFun (sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 _ _) (ix2 p q)).symm.trans hacc
  rw [outsAt0_C m c t h0 h1]
  dsimp only
  refine (congrFun (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 _ _) (ix2 p q)).trans ?_
  rw [pay2_apply, hS, pay4_apply, iblk4_apply m c t p q r hr, iblk5_apply m c t q, iblk6_apply m c t q, h1]
  rfl

/-- What a flushing point writes back is its block of `featK`. -/
theorem flushed_eq (t : Fin cfg0.N) (hf : (cfg0.win 7).flush t = true) :
    (dats m 0 c).flushed 7 t
      = ((cfg0.win 7).blk t).view.read (Elt Ideal) (featK (aX m c) (aE m c) (aW m c) (aS m c) (aEo m c) (aB m c) (aBs m c)) := by
  have h1 : t.val % 16 = 15 := (flush0_7 t).mp hf
  have hN : cfg0.N = 64 := N_0
  show (cfg0.win 7).cut (grid0.coords t) ((dats m 0 c).after 7 t) = _
  rw [after0_7]
  funext j
  obtain ⟨p, q, rfl⟩ : ∃ (p q : Fin 1024), j = ix2 p q := ⟨j 0, j 1, eq_ix2 j⟩
  rw [View.read_apply]
  have ht : t.val < 64 := hN ▸ t.isLt
  have hemb : ((cfg0.win 7).blk t).view.emb (ix2 p q)
      = ix2 (⟨1024 * (t.val / 16) + p.val, by have := p.isLt; omega⟩ : Fin 4096) q := by
    funext a
    apply Fin.ext
    match a with
    | ⟨0, _⟩ => show win0_7.index t 0 * 1024 + 1 * p.val = 1024 * (t.val / 16) + p.val; rw [(index7 t).1]; omega
    | ⟨1, _⟩ => show win0_7.index t 1 * 1024 + 1 * q.val = q.val; rw [(index7 t).2]; omega
  rw [hemb]
  exact out_eq m c t h1 p q _ rfl

/-- Every entry of the layer lies in the block some flushing point writes back: row r in the block of row tile r / 1024. -/
theorem cover (i : S4096x1024.Idx) : ∃ t : Fin cfg0.N, (cfg0.win 7).flush t = true ∧ i ∈ ((cfg0.win 7).blk t).view.set := by
  have hN : cfg0.N = 64 := N_0
  have hi0 : (i 0).val < 4096 := (i 0).isLt
  have hi1 : (i 1).val < 1024 := (i 1).isLt
  have hlt : 16 * ((i 0).val / 1024) + 15 < cfg0.N := by omega
  have key : ∀ t : Fin cfg0.N, t.val = 16 * ((i 0).val / 1024) + 15 →
      (cfg0.win 7).flush t = true ∧ i ∈ ((cfg0.win 7).blk t).view.set := by
    intro t htv
    refine ⟨(flush0_7 t).mpr (by rw [htv]; omega), ?_⟩
    show i ∈ ((View.whole main_v2).slice (win0_7.rect t)).set
    rw [View.set_slice_whole, Rect.mem_set_unit]
    intro a
    match a with
    | ⟨0, _⟩ =>
      show win0_7.index t 0 * 1024 ≤ (i 0).val ∧ (i 0).val < win0_7.index t 0 * 1024 + 1024
      rw [(index7 t).1, htv]
      omega
    | ⟨1, _⟩ =>
      show win0_7.index t 1 * 1024 ≤ (i 1).val ∧ (i 1).val < win0_7.index t 1 * 1024 + 1024
      rw [(index7 t).2]
      omega
  exact ⟨⟨16 * ((i 0).val / 1024) + 15, hlt⟩, key _ rfl⟩

/-- So the region's result array ends holding `featK` of the arrays the region found. -/
theorem final_feat : (dats m 0 c).arrAt 7 cfg0.N
    = featK (aX m c) (aE m c) (aW m c) (aS m c) (aEo m c) (aB m c) (aBs m c) :=
  (dats m 0 c).arrAt_eq_of_cover 7 _ (flushed_eq m c) (cover)

end Cert.Bridge
end
-- ==== Proof.RefFeat.lean ====
/-
  The reference's hidden layer, entry by entry: at (r, q) it is
  max((Σ_d x(r,d)·W(d,q) + fout(r,q)·Σ_d (x(r,d)·fin(r,d))·S(d,q) + b(q)) + bs(q)·fout(r,q), 0), with fin and fout the noise
  scaling sign(e)·√|e| of the two noise arrays — read off the program one operation at a time.
-/
import proofs.«117930_j62053687493050_2_alg».proof.Proof.Gen.ReferenceIdeal.Read
import proofs.«117930_j62053687493050_2_alg».proof.Proof.KernelStep

noncomputable section

open Idealize.ShloMosaic Idealize.ShloMosaic.TcCoe Idealize.ShloMosaic.ValueIdx

namespace Cert.Bridge

open Cert.ReferenceIdeal Cert.ReferenceIdeal.Gen Cert.ReferenceIdeal.Read

theorem lidx8 (r : Fin 4096) (q : Fin 1024) (k : Fin 4096) : lidx_main_v8 (ix2 r q) k = ix2 r k :=
  funext fun a => Fin.ext (by match a with | ⟨0, _⟩ => rfl | ⟨1, _⟩ => rfl)
theorem ridx8 (r : Fin 4096) (q : Fin 1024) (k : Fin 4096) : ridx_main_v8 (ix2 r q) k = ix2 k q :=
  funext fun a => Fin.ext (by match a with | ⟨0, _⟩ => rfl | ⟨1, _⟩ => rfl)
theorem lidx10 (r : Fin 4096) (q : Fin 1024) (k : Fin 4096) : lidx_main_v10 (ix2 r q) k = ix2 r k :=
  funext fun a => Fin.ext (by match a with | ⟨0, _⟩ => rfl | ⟨1, _⟩ => rfl)
theorem ridx10 (r : Fin 4096) (q : Fin 1024) (k : Fin 4096) : ridx_main_v10 (ix2 r q) k = ix2 k q :=
  funext fun a => Fin.ext (by match a with | ⟨0, _⟩ => rfl | ⟨1, _⟩ => rfl)
theorem idx13 (r : Fin 4096) (q : Fin 1024) : idx_main_v13 (ix2 r q) = ix2 (0 : Fin 1) q :=
  funext fun a => Fin.ext (by match a with | ⟨0, _⟩ => rfl | ⟨1, _⟩ => rfl)
theorem idx15 (r : Fin 4096) (q : Fin 1024) : idx_main_v15 (ix2 r q) = ix2 (0 : Fin 1) q :=
  funext fun a => Fin.ext (by match a with | ⟨0, _⟩ => rfl | ⟨1, _⟩ => rfl)

/-- The host's noise scaling of an entry is `nz`. -/
theorem host_noise (e : Ideal .f32) :
    FloatOps.mulf (FloatOps.hostUnary .sign e) (FloatOps.hostUnary .sqrt (FloatOps.hostAbsf e)) = nz e := rfl

theorem ref_feat_apply (x0 x13 : S4096x4096.Idx → Ideal .f32) (x1 x2 x14 : S4096x1024.Idx → Ideal .f32)
    (x3 x4 : S1x1024.Idx → Ideal .f32) (r : Fin 4096) (q : Fin 1024) :
    val_main_v18 (F := Ideal) x0 x1 x2 x3 x4 x13 x14 (ix2 r q)
      = max ((((∑ d : Fin 4096, x0 (ix2 r d) * x1 (ix2 d q))
            + nz (x14 (ix2 r q)) * ∑ d : Fin 4096, (x0 (ix2 r d) * nz (x13 (ix2 r d))) * x2 (ix2 d q))
          + x3 (ix2 (0 : Fin 1) q)) + x4 (ix2 (0 : Fin 1) q) * nz (x14 (ix2 r q))) 0 := by
  rw [val_main_v18_apply, val_main_v17_apply, val_main_v14_apply, val_main_v12_apply, val_main_v8_apply, val_main_v11_apply,
    val_main_v10_apply, val_main_v16_apply, val_main_v13_apply, val_main_v15_apply, val_main_call0_v0_apply,
    val_main_call0_cst_apply]
  simp only [lidx8, ridx8, lidx10, ridx10, idx13, idx15]
  show max (((_ + nz (x14 (ix2 r q)) * ∑ d : Fin 4096, (x0 (ix2 r d) * nz (x13 (ix2 r d))) * x2 (ix2 d q)) + _) + _ * nz (x14 (ix2 r q)))
    (Ideal.ofBits .f32 0x00000000#32) = _
  rw [Ideal.ofBits_zero_f32]

end Cert.Bridge
end
-- ==== Proof.LibBlockedSum.lean ====
/-
  A sum over an axis of length nb · bs may be taken block by block: for each of the nb blocks in order, the sum over the
  bs entries of the block. Stated for any commutative additive monoid (the extended reals among them: re-grouping a sum
  needs no finiteness), with the entry of block k at offset d addressed as (bs · k + d) mod (nb · bs) so that the
  statement needs no bound proofs; within range the remainder is the number itself.
-/
import Mathlib.Algebra.BigOperators.Fin
import Mathlib.Algebra.BigOperators.Field
import Mathlib.Logic.Equiv.Fin.Basic
import Mathlib.Tactic.Ring

namespace Cert.Lib

open Finset

/-- The sum over the blocks, in order, of the sums over each block is the sum over the whole axis. -/
theorem sum_range_blocks {M : Type*} [AddCommMonoid M] (nb bs : ℕ) (hpos : 0 < nb * bs) (f : Fin (nb * bs) → M) :
    ∑ k ∈ Finset.range nb, ∑ d : Fin bs, f ⟨(bs * k + d.val) % (nb * bs), Nat.mod_lt _ hpos⟩ = ∑ j, f j := by
  rw [← Fin.sum_univ_eq_sum_range (fun k => ∑ d : Fin bs, f ⟨(bs * k + d.val) % (nb * bs), Nat.mod_lt _ hpos⟩) nb]
  rw [← Fintype.sum_prod_type']
  refine Fintype.sum_equiv finProdFinEquiv _ _ (fun ⟨k, d⟩ => ?_)
  congr 1
  apply Fin.ext
  show (bs * k.val + d.val) % (nb * bs) = d.val + bs * k.val
  have hlt : bs * k.val + d.val < nb * bs := by
    have h1 : bs * k.val + d.val < bs * k.val + bs := Nat.add_lt_add_left d.isLt _
    have h2 : bs * k.val + bs = bs * (k.val + 1) := by ring
    have h3 : bs * (k.val + 1) ≤ bs * nb := Nat.mul_le_mul_left bs k.isLt
    calc bs * k.val + d.val < bs * (k.val + 1) := h2 ▸ h1
      _ ≤ bs * nb := h3
      _ = nb * bs := Nat.mul_comm _ _
  rw [Nat.mod_eq_of_lt hlt, Nat.add_comm]

/-- The partial sums over the first blocks grow by one block at a time. -/
theorem sum_range_blocks_succ {M : Type*} [AddCommMonoid M] (g : ℕ → M) (k : ℕ) :
    ∑ j ∈ Finset.range (k + 1), g j = (∑ j ∈ Finset.range k, g j) + g k := Finset.sum_range_succ g k

end Cert.Lib
-- ==== Proof.LibCoeSums.lean ====
/-
  On the extended reals a factor moves across a finite sum when the factor and the summands are real numbers (in general
  it does not: ⊤ + ⊥ = ⊥ breaks distributivity). So a sum of terms A_k + g·B_k with g and the B_k real is Σ A_k + g·Σ B_k,
  whatever extended reals the A_k are.
-/
import Mathlib.Data.EReal.Operations
import Mathlib.Algebra.BigOperators.Ring.Finset

open scoped BigOperators

namespace Cert.Lib

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor moves across a finite sum of real numbers, inside the extended reals. -/
theorem mul_sum_coe {ι : Type*} (s : Finset ι) (g : ℝ) (B : ι → ℝ) :
    (g : EReal) * ∑ k ∈ s, (B k : EReal) = ∑ k ∈ s, (g : EReal) * (B k : EReal) := by
  rw [← coe_sum, ← EReal.coe_mul, Finset.mul_sum, coe_sum]
  exact Finset.sum_congr rfl fun k _ => EReal.coe_mul g (B k)

/-- Terms A_k + g·B_k with g and the B_k real sum to Σ A_k + g·Σ B_k. -/
theorem sum_add_mul_coe {ι : Type*} (s : Finset ι) (A : ι → EReal) (g : ℝ) (B : ι → ℝ) :
    ∑ k ∈ s, (A k + (g : EReal) * (B k : EReal)) = (∑ k ∈ s, A k) + (g : EReal) * ∑ k ∈ s, (B k : EReal) := by
  rw [Finset.sum_add_distrib, mul_sum_coe]

end Cert.Lib
-- ==== Proof.FeatBridge.lean ====
/-
  The law that joins the two sides. The kernel takes the hidden layer's two contractions sixteen blocks at a time and
  multiplies each block of the second one by fout before adding; the reference takes each contraction whole and multiplies
  once. Re-grouping the sums is free on the extended reals, but moving the factor fout across the sum of the sixteen blocks
  is distributivity, which holds because x, e_in, S and e_out are real numbers (the precondition): then fin, fout and every
  block of the second contraction are real. With that the kernel's layer is the reference's, entry by entry.
-/
import proofs.«117930_j62053687493050_2_alg».proof.Proof.KernelAcc
import proofs.«117930_j62053687493050_2_alg».proof.Proof.RefFeat
import proofs.«117930_j62053687493050_2_alg».proof.Proof.LibBlockedSum
import proofs.«117930_j62053687493050_2_alg».proof.Proof.LibCoeSums

noncomputable section

open Idealize.ShloMosaic Idealize.ShloMosaic.TcCoe Idealize.ShloMosaic.ValueIdx

namespace Cert.Bridge

/-- The noise scaling of a real number is a real number. -/
theorem nz_coe (r : ℝ) : nz (r : EReal) = ((SignType.sign r * Real.sqrt |r| : ℝ) : EReal) := by
  unfold nz
  have h : max (r : EReal) (-(r : EReal)) = ((|r| : ℝ) : EReal) := by
    rw [← EReal.coe_neg, abs_eq_max_neg]
    exact (EReal.coe_strictMono.monotone.map_max).symm
  rw [h, Ideal.sign_coe, Ideal.sqrt_coe, if_neg (not_lt.mpr (abs_nonneg r)), ← EReal.coe_mul]

/-- The sixteen blocks' contributions to an entry sum to the two whole contractions, the second times fout. -/
theorem sum_terms (X E : Cert.KernelIdeal.S4096x4096.Idx → Ideal .f32) (W S : Cert.KernelIdeal.S4096x1024.Idx → Ideal .bf16)
    (Eo : Cert.KernelIdeal.S4096x1024.Idx → Ideal .f32) (r : Fin 4096) (q : Fin 1024)
    (hX : ∀ d : Fin 4096, ∃ x : ℝ, X (ix2 r d) = (x : EReal)) (hE : ∀ d : Fin 4096, ∃ e : ℝ, E (ix2 r d) = (e : EReal))
    (hS : ∀ d : Fin 4096, ∃ s : ℝ, S (ix2 d q) = (s : EReal)) (hEo : ∃ f : ℝ, Eo (ix2 r q) = (f : EReal)) :
    ∑ k ∈ Finset.range 16, term X E W S Eo r q k
      = (∑ d : Fin 4096, X (ix2 r d) * W (ix2 d q))
        + nz (Eo (ix2 r q)) * ∑ d : Fin 4096, (X (ix2 r d) * nz (E (ix2 r d))) * S (ix2 d q) := by
  choose x hx using hX
  choose e he using hE
  choose s hs using hS
  obtain ⟨f, hf⟩ := hEo
  have hb : ∀ d : Fin 4096, (X (ix2 r d) * nz (E (ix2 r d))) * S (ix2 d q)
      = (((x d * (SignType.sign (e d) * Real.sqrt |e d|)) * s d : ℝ) : EReal) := fun d => by
    rw [hx, he, hs, nz_coe, ← EReal.coe_mul, ← EReal.coe_mul]
  have hg : nz (Eo (ix2 r q)) = ((SignType.sign f * Real.sqrt |f| : ℝ) : EReal) := by rw [hf, nz_coe]
  unfold term
  simp only [hb, hg]
  have hB : ∀ k : ℕ, ∑ u : Fin 256, (((x (col k u) * (SignType.sign (e (col k u)) * Real.sqrt |e (col k u)|)) * s (col k u) : ℝ) : EReal)
      = ((∑ u : Fin 256, (x (col k u) * (SignType.sign (e (col k u)) * Real.sqrt |e (col k u)|)) * s (col k u) : ℝ) : EReal) :=
    fun k => (Cert.Lib.coe_sum _ _).symm
  simp only [hB]
  rw [Cert.Lib.sum_add_mul_coe (Finset.range 16) (fun k => ∑ u : Fin 256, X (ix2 r (col k u)) * W (ix2 (col k u) q))
    (SignType.sign f * Real.sqrt |f|) (fun k => ∑ u : Fin 256, (x (col k u) * (SignType.sign (e (col k u)) * Real.sqrt |e (col k u)|)) * s (col k u)),
    ← Cert.Lib.coe_sum (Finset.range 16), ← Cert.Lib.coe_sum Finset.univ]
  have h1 : (∑ k ∈ Finset.range 16, ∑ u : Fin 256, X (ix2 r (col k u)) * W (ix2 (col k u) q))
      = ∑ d : Fin 4096, X (ix2 r d) * W (ix2 d q) :=
    Cert.Lib.sum_range_blocks 16 256 (by norm_num) (fun d : Fin (16 * 256) => X (ix2 r d) * W (ix2 d q))
  have h2 : (∑ k ∈ Finset.range 16, ∑ u : Fin 256, (x (col k u) * (SignType.sign (e (col k u)) * Real.sqrt |e (col k u)|)) * s (col k u))
      = ∑ d : Fin 4096, (x d * (SignType.sign (e d) * Real.sqrt |e d|)) * s d :=
    Cert.Lib.sum_range_blocks 16 256 (by norm_num) (fun d : Fin (16 * 256) => (x d * (SignType.sign (e d) * Real.sqrt |e d|)) * s d)
  rw [h1, h2]

/-- Under the precondition's finiteness the kernel's hidden layer is the reference's: the converted weights are the
    weights (a change of float format is the identity), and the blocks re-assemble (`sum_terms`). -/
theorem featK_eq_ref (X E : Cert.KernelIdeal.S4096x4096.Idx → Ideal .f32) (W S : Cert.KernelIdeal.S4096x1024.Idx → Ideal .bf16)
    (W' S' Eo : Cert.KernelIdeal.S4096x1024.Idx → Ideal .f32) (B Bs : Cert.KernelIdeal.S1x1024.Idx → Ideal .f32)
    (hW : ∀ i, (W i : EReal) = W' i) (hS : ∀ i, (S i : EReal) = S' i)
    (hX : ∀ i, ∃ x : ℝ, X i = (x : EReal)) (hE : ∀ i, ∃ e : ℝ, E i = (e : EReal))
    (hS' : ∀ i, ∃ s : ℝ, S' i = (s : EReal)) (hEo : ∀ i, ∃ f : ℝ, Eo i = (f : EReal)) :
    featK X E W S Eo B Bs = Cert.ReferenceIdeal.Read.val_main_v18 (F := Ideal) X W' S' B Bs E Eo := by
  funext i
  obtain ⟨r, q, rfl⟩ : ∃ (r : Fin 4096) (q : Fin 1024), i = ix2 r q := ⟨i 0, i 1, eq_ix2 i⟩
  rw [ref_feat_apply]
  unfold featK
  show max (((∑ k ∈ Finset.range 16, term X E W S Eo r q k) + B (ix2 (0 : Fin 1) q)) + Bs (ix2 (0 : Fin 1) q) * nz (Eo (ix2 r q))) 0 = _
  rw [sum_terms X E W S Eo r q (fun d => hX _) (fun d => hE _) (fun d => by obtain ⟨s, hs⟩ := hS' (ix2 d q); exact ⟨s, (hS _).trans hs⟩) (hEo _)]
  simp only [hW, hS]

section
open Cert.KernelIdeal Cert.KernelIdeal.Gen

variable (m : (ℓ : Loc nD τ sig) → Buf (Elt Ideal) ℓ) (c : Dev nD)

/-- The region's result array is the reference's hidden layer of the same inputs, when x, S, e_in and e_out are real. -/
theorem kernel_feat_eq_ref
    (h0 : ∀ i, ∃ x : ℝ, m ((c : Thread nD τ).loc main_arg0) i = (x : EReal))
    (h2 : ∀ i, ∃ x : ℝ, m ((c : Thread nD τ).loc main_arg2) i = (x : EReal))
    (h13 : ∀ i, ∃ x : ℝ, m ((c : Thread nD τ).loc main_arg13) i = (x : EReal))
    (h14 : ∀ i, ∃ x : ℝ, m ((c : Thread nD τ).loc main_arg14) i = (x : EReal)) :
    (dats m 0 c).arrAt 7 cfg0.N
      = Cert.ReferenceIdeal.Read.val_main_v18 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg13)) (m ((c : Thread nD τ).loc main_arg14)) := by
  rw [final_feat m c]
  have eX : aX m c = m ((c : Thread nD τ).loc main_arg0) := V_main_arg0 m c
  have eE : aE m c = m ((c : Thread nD τ).loc main_arg13) := V_main_arg13 m c
  have eEo : aEo m c = m ((c : Thread nD τ).loc main_arg14) := V_main_arg14 m c
  have eB : aB m c = m ((c : Thread nD τ).loc main_arg3) := V_main_arg3 m c
  have eBs : aBs m c = m ((c : Thread nD τ).loc main_arg4) := V_main_arg4 m c
  rw [eX, eE, eEo, eB, eBs]
  exact featK_eq_ref _ _ (aW m c) (aS m c) (m ((c : Thread nD τ).loc main_arg1)) (m ((c : Thread nD τ).loc main_arg2)) _ _ _
    (fun i => congrFun (V_v0 m c) i) (fun i => congrFun (V_v1 m c) i) h0 h13 h2 h14

end

end Cert.Bridge
end
-- ==== Proof.Tail.lean ====
/- After the hidden layer, both programs apply the same operations.

   Both programs compute a [4096,1024] array of features and then apply the same chain of
   operations to it and to twelve of the inputs: the features are cut into two halves of 512
   columns; each half feeds a noisy dense head  x·W + f_out ⊙ ((x ⊙ f_in)·S) + b + b_s ⊙ f_out,
   where f = sign ⊙ sqrt ∘ abs of a noise input; from the 18-column head its mean over the 18
   columns is subtracted, and the 1-column head (the value) is added to every column.
   `tail` is that chain, stated once; `ref_result` and `kernel_result` say that each
   program's result is `tail` of its own features and of the twelve inputs it shares. -/
import proofs.«117930_j62053687493050_2_alg».proof.Proof.Gen.KernelIdeal.Frame
import proofs.«117930_j62053687493050_2_alg».proof.Proof.Gen.ReferenceIdeal.Read
import Idealize.ShloMosaic.Lib.StableHlo.Run
import Idealize.ShloMosaic.Lib.Pipeline.Value

noncomputable section

namespace Cert.Bridge

open Cert.KernelIdeal Cert.KernelIdeal.Gen Idealize.ShloMosaic Idealize.ShloMosaic.TcCoe Idealize.SL.Sem Idealize.ShloMosaic.StableHlo

/-- The operations after the hidden layer, as one function of the features and of the twelve
    inputs they read: the two halves of the features, the two noisy dense heads, the mean of the
    18-column head over its columns subtracted from it, and the 1-column head added to every column. -/
noncomputable def tail (feat : FVec Ideal S4096x1024 .f32) (a5 a6 : FVec Ideal S512x18 .f32) (a7 a8 : FVec Ideal S1x18 .f32)
    (a9 a10 : FVec Ideal S512x1 .f32) (a11 a12 : FVec Ideal S1x1 .f32) (a15 : FVec Ideal S4096x512 .f32)
    (a16 : FVec Ideal S4096x18 .f32) (a17 : FVec Ideal S4096x512 .f32) (a18 : FVec Ideal S4096x1 .f32) :
    FVec Ideal S4096x18 .f32 :=
  have v3 : FVec Ideal S4096x512 .f32 := extractStridedSlice S4096x512 ![0, 0] feat slices_S4096x1024_S4096x512_0_0
  have v4 : FVec Ideal S4096x512 .f32 := extractStridedSlice S4096x512 ![0, 512] feat slices_S4096x1024_S4096x512_0_512
  have v5 : FVec Ideal S4096x512 .f32 := Host.sign (F := Ideal) a15
  have v6 : FVec Ideal S4096x512 .f32 := Host.absf (F := Ideal) a15
  have v7 : FVec Ideal S4096x512 .f32 := Host.sqrt (F := Ideal) v6
  have v8 : FVec Ideal S4096x512 .f32 := mulf v5 v7
  have v9 : FVec Ideal S4096x18 .f32 := Host.sign (F := Ideal) a16
  have v10 : FVec Ideal S4096x18 .f32 := Host.absf (F := Ideal) a16
  have v11 : FVec Ideal S4096x18 .f32 := Host.sqrt (F := Ideal) v10
  have v12 : FVec Ideal S4096x18 .f32 := mulf v9 v11
  have v13 : FVec Ideal S4096x18 .f32 := Host.dotGeneral (F := Ideal) dot_S4096x512_S512x18_S4096x18_1_0_0_1_n_n none v3 a5
  have v14 : FVec Ideal S4096x512 .f32 := mulf v3 v8
  have v15 : FVec Ideal S4096x18 .f32 := Host.dotGeneral (F := Ideal) dot_S4096x512_S512x18_S4096x18_1_0_0_1_n_n none v14 a6
  have v16 : FVec Ideal S4096x18 .f32 := mulf v12 v15
  have v17 : FVec Ideal S4096x18 .f32 := addf v13 v16
  have v18 : FVec Ideal S4096x18 .f32 := broadcastInDim S4096x18 ![0, 1] bcast_S1x18_S4096x18_0_1 a7
  have v19 : FVec Ideal S4096x18 .f32 := addf v17 v18
  have v20 : FVec Ideal S4096x18 .f32 := broadcastInDim S4096x18 ![0, 1] bcast_S1x18_S4096x18_0_1 a8
  have v21 : FVec Ideal S4096x18 .f32 := mulf v20 v12
  have v22 : FVec Ideal S4096x18 .f32 := addf v19 v21
  have v23 : FVec Ideal S4096x512 .f32 := Host.sign (F := Ideal) a17
  have v24 : FVec Ideal S4096x512 .f32 := Host.absf (F := Ideal) a17
  have v25 : FVec Ideal S4096x512 .f32 := Host.sqrt (F := Ideal) v24
  have v26 : FVec Ideal S4096x512 .f32 := mulf v23 v25
  have v27 : FVec Ideal S4096x1 .f32 := Host.sign (F := Ideal) a18
  have v28 : FVec Ideal S4096x1 .f32 := Host.absf (F := Ideal) a18
  have v29 : FVec Ideal S4096x1 .f32 := Host.sqrt (F := Ideal) v28
  have v30 : FVec Ideal S4096x1 .f32 := mulf v27 v29
  have v31 : FVec Ideal S4096x1 .f32 := Host.dotGeneral (F := Ideal) dot_S4096x512_S512x1_S4096x1_1_0_0_1_n_n none v4 a9
  have v32 : FVec Ideal S4096x512 .f32 := mulf v4 v26
  have v33 : FVec Ideal S4096x1 .f32 := Host.dotGeneral (F := Ideal) dot_S4096x512_S512x1_S4096x1_1_0_0_1_n_n none v32 a10
  have v34 : FVec Ideal S4096x1 .f32 := mulf v30 v33
  have v35 : FVec Ideal S4096x1 .f32 := addf v31 v34
  have v36 : FVec Ideal S4096x1 .f32 := broadcastInDim S4096x1 ![0, 1] bcast_S1x1_S4096x1_0_1 a11
  have v37 : FVec Ideal S4096x1 .f32 := addf v35 v36
  have v38 : FVec Ideal S4096x1 .f32 := broadcastInDim S4096x1 ![0, 1] bcast_S1x1_S4096x1_0_1 a12
  have v39 : FVec Ideal S4096x1 .f32 := mulf v38 v30
  have v40 : FVec Ideal S4096x1 .f32 := addf v37 v39
  have cst : FVec Ideal S_ .f32 := constant (F := Ideal) S_ .f32 0x00000000#32
  have v41 : FVec Ideal S4096 .f32 := Host.reduceAdd (F := Ideal) v22 cst reducesTo_S4096x18_S4096_d1 h_S_
  have v42 : FVec Ideal S4096x1 .f32 := broadcastInDim S4096x1 ![0] bcast_S4096_S4096x1_0 v41
  have cst_0 : FVec Ideal S_ .f32 := constant (F := Ideal) S_ .f32 0x41900000#32
  have v43 : FVec Ideal S4096x1 .f32 := broadcastInDim S4096x1 ![] bcast_S_S4096x1 cst_0
  have v44 : FVec Ideal S4096x1 .f32 := Host.divf (F := Ideal) v42 v43
  have v45 : FVec Ideal S4096x18 .f32 := broadcastInDim S4096x18 ![0, 1] bcast_S4096x1_S4096x18_0_1 v44
  have v46 : FVec Ideal S4096x18 .f32 := subf v22 v45
  have v47 : FVec Ideal S4096x18 .f32 := broadcastInDim S4096x18 ![0, 1] bcast_S4096x1_S4096x18_0_1 v40
  have v48 : FVec Ideal S4096x18 .f32 := addf v47 v46
  v48

/-- The reference's result is `tail` of its features (its value number 18) and of its inputs. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v64 (F := Ideal) m c
      = tail (Cert.ReferenceIdeal.Read.val_main_v18 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)))
          (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) := by
  rw [Cert.ReferenceIdeal.Read.val_main_v64_eq]
  rfl

set_option maxRecDepth 8192 in
set_option maxHeartbeats 2000000 in
/-- The kernel program's result is `tail` of what the region leaves in its output array (the array of
    window 7, the features) and of the inputs. The operations after the region read the buffers as the
    region leaves them: its output array holds what the last grid point leaves there, and an input that
    no window stages, and that no operation before the region writes, still holds what it was launched with. -/
theorem kernel_result (m : (ℓ : Loc nD τ sig) → Buf (Elt Ideal) ℓ) (c : Dev nD) :
    Pipeline.afterTail₀ cfgs (Gen.dats m) 0 (Gen.V0 m) [Gen.hostOps1] c main_v48
      = tail ((Gen.dats m 0 c).arrAt 7 cfg0.N) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) (m ((c.tc : Thread nD τ).loc main_arg18)) := by
  unfold Pipeline.afterTail₀
  show StableHlo.after Gen.hostOps1 _ (Proc.devRef .tc main_v48) = _
  -- W: the buffers' contents when the region ends
  generalize hW : Pipeline.withArrays _ _ _ _ = W
  -- the features: the array of window 7
  have e2 : W (Proc.devRef .tc main_v2) = (dats m 0 c).arrAt 7 cfg0.N := by
    subst hW
    exact Pipeline.withArrays_arr spec0 launch0.win.arr_inj c _ _ 7
  -- the twelve inputs: staged by no window, written by no operation before the region
  have e5 : W (Proc.devRef .tc main_arg5) = m ((c.tc : Thread nD τ).loc main_arg5) := by
    subst hW
    exact (Pipeline.withArrays_of_ne _ c (V0 m c) _ main_arg5 (by exact (by decide : ∀ w, Pipeline.arrRef spec0 w ≠ main_arg5))).trans (V_main_arg5 m c)
  have e6 : W (Proc.devRef .tc main_arg6) = m ((c.tc : Thread nD τ).loc main_arg6) := by
    subst hW
    exact (Pipeline.withArrays_of_ne _ c (V0 m c) _ main_arg6 (by exact (by decide : ∀ w, Pipeline.arrRef spec0 w ≠ main_arg6))).trans (V_main_arg6 m c)
  have e7 : W (Proc.devRef .tc main_arg7) = m ((c.tc : Thread nD τ).loc main_arg7) := by
    subst hW
    exact (Pipeline.withArrays_of_ne _ c (V0 m c) _ main_arg7 (by exact (by decide : ∀ w, Pipeline.arrRef spec0 w ≠ main_arg7))).trans (V_main_arg7 m c)
  have e8 : W (Proc.devRef .tc main_arg8) = m ((c.tc : Thread nD τ).loc main_arg8) := by
    subst hW
    exact (Pipeline.withArrays_of_ne _ c (V0 m c) _ main_arg8 (by exact (by decide : ∀ w, Pipeline.arrRef spec0 w ≠ main_arg8))).trans (V_main_arg8 m c)
  have e9 : W (Proc.devRef .tc main_arg9) = m ((c.tc : Thread nD τ).loc main_arg9) := by
    subst hW
    exact (Pipeline.withArrays_of_ne _ c (V0 m c) _ main_arg9 (by exact (by decide : ∀ w, Pipeline.arrRef spec0 w ≠ main_arg9))).trans (V_main_arg9 m c)
  have e10 : W (Proc.devRef .tc main_arg10) = m ((c.tc : Thread nD τ).loc main_arg10) := by
    subst hW
    exact (Pipeline.withArrays_of_ne _ c (V0 m c) _ main_arg10 (by exact (by decide : ∀ w, Pipeline.arrRef spec0 w ≠ main_arg10))).trans (V_main_arg10 m c)
  have e11 : W (Proc.devRef .tc main_arg11) = m ((c.tc : Thread nD τ).loc main_arg11) := by
    subst hW
    exact (Pipeline.withArrays_of_ne _ c (V0 m c) _ main_arg11 (by exact (by decide : ∀ w, Pipeline.arrRef spec0 w ≠ main_arg11))).trans (V_main_arg11 m c)
  have e12 : W (Proc.devRef .tc main_arg12) = m ((c.tc : Thread nD τ).loc main_arg12) := by
    subst hW
    exact (Pipeline.withArrays_of_ne _ c (V0 m c) _ main_arg12 (by exact (by decide : ∀ w, Pipeline.arrRef spec0 w ≠ main_arg12))).trans (V_main_arg12 m c)
  have e15 : W (Proc.devRef .tc main_arg15) = m ((c.tc : Thread nD τ).loc main_arg15) := by
    subst hW
    exact (Pipeline.withArrays_of_ne _ c (V0 m c) _ main_arg15 (by exact (by decide : ∀ w, Pipeline.arrRef spec0 w ≠ main_arg15))).trans (V_main_arg15 m c)
  have e16 : W (Proc.devRef .tc main_arg16) = m ((c.tc : Thread nD τ).loc main_arg16) := by
    subst hW
    exact (Pipeline.withArrays_of_ne _ c (V0 m c) _ main_arg16 (by exact (by decide : ∀ w, Pipeline.arrRef spec0 w ≠ main_arg16))).trans (V_main_arg16 m c)
  have e17 : W (Proc.devRef .tc main_arg17) = m ((c.tc : Thread nD τ).loc main_arg17) := by
    subst hW
    exact (Pipeline.withArrays_of_ne _ c (V0 m c) _ main_arg17 (by exact (by decide : ∀ w, Pipeline.arrRef spec0 w ≠ main_arg17))).trans (V_main_arg17 m c)
  have e18 : W (Proc.devRef .tc main_arg18) = m ((c.tc : Thread nD τ).loc main_arg18) := by
    subst hW
    exact (Pipeline.withArrays_of_ne _ c (V0 m c) _ main_arg18 (by exact (by decide : ∀ w, Pipeline.arrRef spec0 w ≠ main_arg18))).trans (V_main_arg18 m c)
  -- the 48 operations, each read at its result, down to the buffers they start from
  after_results_simp
  rw [e2, e5, e6, e7, e8, e9, e10, e11, e12, e15, e16, e17, e18]
  rfl

end Cert.Bridge

end
-- ==== Proof.FiniteInputs.lean ====
/-
  Every entry of five of the input arrays is a real number, from the precondition.

  The precondition is a conjunction of nineteen bits, one per input array; the bit of an array `a` is the
  conjunction, over all of its entries `x`, of the comparison `|x| < +∞`. Over the extended reals
  `|x| = max x (-x)`, and `max x (-x) < ⊤` rules out both `x = ⊤` and `x = ⊥` (since `-⊥ = ⊤`), so `x` is
  the image of a real number. The conjunction being 1 makes each of its bits 1, and a conjunction over all
  entries being 1 makes each entry's comparison 1.
-/
import proofs.«117930_j62053687493050_2_alg».proof.Proof.Gen.Pre_finite_inputs
import Idealize.ShloMosaic.PureOps.Ideal
import Idealize.ShloMosaic.Lib.ReduceAll

noncomputable section

namespace Cert.Bridge

open Cert.Pre_finite_inputs Cert.Pre_finite_inputs.Gen Idealize.ShloMosaic

/-- The bit pattern of `+∞` denotes the top of the extended reals. -/
theorem ofBits_inf : Ideal.ofBits .f32 0x7F800000#32 = (⊤ : EReal) := by
  simp [Ideal.ofBits, Ideal.ieee]

/-- An extended real whose absolute value is below `+∞` is a real number. -/
theorem real_of_abs_lt_inf (x : Ideal .f32)
    (h : FloatOps.cmpf (F := Ideal) .olt (FloatOps.hostAbsf x) (FloatOps.ofBits (F := Ideal) .f32 0x7F800000#32) = 1#1) :
    ∃ r : ℝ, x = (r : EReal) := by
  have h1 : Ideal.cmp .olt (max (x : EReal) (-(x : EReal))) (Ideal.ofBits .f32 0x7F800000#32) = 1#1 := h
  rw [ofBits_inf] at h1
  have h2 : max (x : EReal) (-(x : EReal)) < ⊤ := by
    by_contra hn
    simp [Ideal.cmp, hn] at h1
  induction x using EReal.rec with
  | bot => simp at h2
  | coe r => exact ⟨r, rfl⟩
  | top => simp at h2

/-- The result shape of a reduction over every axis has exactly one index. -/
instance subsingleton_idx : Subsingleton S_.Idx := ⟨fun a b => funext fun d => d.elim0⟩

/-- If the conjunction over all entries of `|x| < +∞` is 1, every entry of the array is a real number. -/
theorem real_of_all {s : Shape} {axes : List (Fin s.rank)} (dims : Fin S_.rank → Fin s.rank)
    (hb : S_.BroadcastsInDim s dims) (hr : s.ReducesTo axes S_) (hu : 0 < S_.numel)
    (x : FVec Ideal s .f32) (j : S_.Idx)
    (e : Host.reduce IntOp.andi
          (cmpf .olt (Host.absf x) (broadcastInDim s dims hb (constant (F := Ideal) S_ .f32 0x7F800000#32)))
          (constantI S_ 1 1#1) hr hu j = 1#1) :
    ∀ i, ∃ r : ℝ, x i = (r : EReal) := fun i =>
  real_of_abs_lt_inf (x i) (Host.reduce_andi_all _ _ hr hu j e i)

/-- From the precondition, every entry of the arrays `a0`, `a1`, `a2`, `a13`, `a14` is a real number. The
    precondition's value at its one index is a left-nested conjunction of the nineteen arrays' bits in order;
    it is peeled from the outside (the last array first), keeping the five bits that are used. -/
theorem real_of_finite_inputs
    (a0 : FVec Ideal S4096x4096 .f32) (a1 a2 : FVec Ideal S4096x1024 .f32) (a3 a4 : FVec Ideal S1x1024 .f32)
    (a5 a6 : FVec Ideal S512x18 .f32) (a7 a8 : FVec Ideal S1x18 .f32) (a9 a10 : FVec Ideal S512x1 .f32)
    (a11 a12 : FVec Ideal S1x1 .f32) (a13 : FVec Ideal S4096x4096 .f32) (a14 : FVec Ideal S4096x1024 .f32)
    (a15 : FVec Ideal S4096x512 .f32) (a16 : FVec Ideal S4096x18 .f32) (a17 : FVec Ideal S4096x512 .f32)
    (a18 : FVec Ideal S4096x1 .f32)
    (h : Cert.Pre_finite_inputs.fn (F := Ideal) a0 a1 a2 a3 a4 a5 a6 a7 a8 a9 a10 a11 a12 a13 a14 a15 a16 a17 a18
          = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a13 i = (r : EReal)) ∧ (∀ i, ∃ r : ℝ, a14 i = (r : EReal)) := by
  have h0 := congrFun h (fun d => d.elim0)
  dsimp only [fn, fn_part1, fn_part2, fn_part3, fn_part4, fn_part5, andi] at h0
  -- the bits of a18, a17, a16, a15 are dropped
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  -- the bits of a14 and a13 are kept
  obtain ⟨h0, e14⟩ := IntOp.andi_eq_one.1 h0
  obtain ⟨h0, e13⟩ := IntOp.andi_eq_one.1 h0
  -- the bits of a12, …, a3 are dropped
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  -- the bits of a2, a1, a0 are kept
  obtain ⟨h0, e2⟩ := IntOp.andi_eq_one.1 h0
  obtain ⟨e0, e1⟩ := IntOp.andi_eq_one.1 h0
  exact ⟨real_of_all _ _ _ _ a0 _ e0, real_of_all _ _ _ _ a1 _ e1, real_of_all _ _ _ _ a2 _ e2,
    real_of_all _ _ _ _ a13 _ e13, real_of_all _ _ _ _ a14 _ e14⟩

end Cert.Bridge

end
-- ==== Proof.lean ====
/-
  The certificate of the noisy dueling network's forward pass: a Pallas kernel for the hidden layer followed by the two
  small heads in plain array code, against the reference that computes everything in plain array code.

  Both programs end with the same forty-six array operations applied to the hidden layer's [4096, 1024] result and to twelve
  of the inputs (two noisy dense heads, the advantage's row mean subtracted, value plus advantage): one function `tail`,
  never opened. So the claim reduces to the hidden layer. The reference computes it as
  max(x·W + fout ⊙ ((x ⊙ fin)·S) + b + bs ⊙ fout, 0) with fin = sign(e_in)·√|e_in| and fout = sign(e_out)·√|e_out|. The
  kernel walks a 4 × 16 grid (row tile, contraction block): it accumulates x_k·W_k + fout ⊙ ((x ⊙ fin)_k·S_k) over the sixteen
  contraction blocks k of a row tile and, at the last block, adds the two bias terms and rectifies. At the extended reals a
  change of float format is the identity and a product into a zero accumulator is the plain contraction, so the only law
  needed is that the factor fout moves across the sum of the sixteen blocks: distributivity, which holds because the
  precondition makes x, e_in, S and e_out real numbers. The kernel spells sign(e) as ±1 by e < 0 where |e| > 0, else e;
  times √|e| that is the host's sign(e)·√|e| at every extended real. The ideal pass replaced the kernel's sign-bit idiom by
  that comparison at two sites: the two conjuncts of `preserves`.
-/
import proofs.«117930_j62053687493050_2_alg».proof.Defs
import proofs.«117930_j62053687493050_2_alg».proof.Proof.Gen.Kernel
import proofs.«117930_j62053687493050_2_alg».proof.Proof.Gen.Kernel.Skeleton
import proofs.«117930_j62053687493050_2_alg».proof.Proof.Gen.Kernel.Launch
import proofs.«117930_j62053687493050_2_alg».proof.Proof.Gen.Kernel.Points
import proofs.«117930_j62053687493050_2_alg».proof.Proof.Gen.Kernel.Frame
import proofs.«117930_j62053687493050_2_alg».proof.Proof.Gen.KernelIdeal
import proofs.«117930_j62053687493050_2_alg».proof.Proof.Gen.KernelIdeal.Skeleton
import proofs.«117930_j62053687493050_2_alg».proof.Proof.Gen.KernelIdeal.Launch
import proofs.«117930_j62053687493050_2_alg».proof.Proof.Gen.KernelIdeal.Points
import proofs.«117930_j62053687493050_2_alg».proof.Proof.Gen.KernelIdeal.Frame
import proofs.«117930_j62053687493050_2_alg».proof.Proof.Gen.ReferenceIdeal
import proofs.«117930_j62053687493050_2_alg».proof.Proof.Gen.ReferenceIdeal.Run
import proofs.«117930_j62053687493050_2_alg».proof.Proof.Gen.ReferenceIdeal.Read
import proofs.«117930_j62053687493050_2_alg».proof.Proof.Gen.Pre_finite_inputs
import proofs.«117930_j62053687493050_2_alg».proof.Proof.FeatBridge
import proofs.«117930_j62053687493050_2_alg».proof.Proof.Tail
import proofs.«117930_j62053687493050_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two sites where the kernel takes 1.0 with an entry's sign bit: at the extended reals the comparison printed in their
    place is ±1 by the entry being negative. -/
theorem preserves : Cert.preserves_Kernel_KernelIdeal :=
  ⟨IdealRules.sign_bit.statement _ _, IdealRules.sign_bit.statement _ _⟩

/-- Equal arguments give equal tails (stated over variables, so that nothing of the programs is unfolded). -/
theorem tail_congr {f f' : FVec Ideal Cert.KernelIdeal.S4096x1024 .f32} {a5 a5' a6 a6' : FVec Ideal Cert.KernelIdeal.S512x18 .f32}
    {a7 a7' a8 a8' : FVec Ideal Cert.KernelIdeal.S1x18 .f32} {a9 a9' a10 a10' : FVec Ideal Cert.KernelIdeal.S512x1 .f32}
    {a11 a11' a12 a12' : FVec Ideal Cert.KernelIdeal.S1x1 .f32} {a15 a15' : FVec Ideal Cert.KernelIdeal.S4096x512 .f32}
    {a16 a16' : FVec Ideal Cert.KernelIdeal.S4096x18 .f32} {a17 a17' : FVec Ideal Cert.KernelIdeal.S4096x512 .f32}
    {a18 a18' : FVec Ideal Cert.KernelIdeal.S4096x1 .f32}
    (hf : f = f') (h5 : a5 = a5') (h6 : a6 = a6') (h7 : a7 = a7') (h8 : a8 = a8') (h9 : a9 = a9') (h10 : a10 = a10')
    (h11 : a11 = a11') (h12 : a12 = a12') (h15 : a15 = a15') (h16 : a16 = a16') (h17 : a17 = a17') (h18 : a18 = a18') :
    Cert.Bridge.tail f a5 a6 a7 a8 a9 a10 a11 a12 a15 a16 a17 a18
      = Cert.Bridge.tail f' a5' a6' a7' a8' a9' a10' a11' a12' a15' a16' a17' a18' := by
  rw [hf, h5, h6, h7, h8, h9, h10, h11, h12, h15, h16, h17, h18]

/-- Equal arguments give equal hidden layers. -/
theorem feat_congr {x0 x0' x13 x13' : FVec Ideal Cert.ReferenceIdeal.S4096x4096 .f32}
    {x1 x1' x2 x2' x14 x14' : FVec Ideal Cert.ReferenceIdeal.S4096x1024 .f32} {x3 x3' x4 x4' : FVec Ideal Cert.ReferenceIdeal.S1x1024 .f32}
    (h0 : x0 = x0') (h1 : x1 = x1') (h2 : x2 = x2') (h3 : x3 = x3') (h4 : x4 = x4') (h13 : x13 = x13') (h14 : x14 = x14') :
    Cert.ReferenceIdeal.Read.val_main_v18 (F := Ideal) x0 x1 x2 x3 x4 x13 x14
      = Cert.ReferenceIdeal.Read.val_main_v18 (F := Ideal) x0' x1' x2' x3' x4' x13' x14' := by
  rw [h0, h1, h2, h3, h4, h13, h14]

/-- Both programs end at `tail` of the hidden layer and the same twelve inputs; the kernel's hidden layer is the
    reference's under the precondition (`kernel_feat_eq_ref`). -/
theorem algebraic : Cert.algebraic_KernelIdeal_ReferenceIdeal := by
  intro m ρ m' ρ' hpre hagree
  refine ⟨fun c => Cert.Bridge.tail ((Cert.KernelIdeal.Gen.dats m 0 c).arrAt 7 Cert.KernelIdeal.cfg0.N) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · refine (θ_run Cert.KernelIdeal.defs _ _).mono (fun r h c => ⟨?_, ((h c).1 0).trans (((Cert.KernelIdeal.Gen.dats m 0 c).arrAt_in 0 rfl _).trans ((Cert.KernelIdeal.Gen.A_eq m c 0).trans (Cert.KernelIdeal.Gen.V_main_arg0 m c))),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).1 5).trans (((Cert.KernelIdeal.Gen.dats m 0 c).arrAt_in 5 rfl _).trans ((Cert.KernelIdeal.Gen.A_eq m c 5).trans (Cert.KernelIdeal.Gen.V_main_arg3 m c))),
      ((h c).1 6).trans (((Cert.KernelIdeal.Gen.dats m 0 c).arrAt_in 6 rfl _).trans ((Cert.KernelIdeal.Gen.A_eq m c 6).trans (Cert.KernelIdeal.Gen.V_main_arg4 m c))),
      ((h c).2 Cert.KernelIdeal.main_arg5 (Pipeline.mem_restRefs_of Cert.KernelIdeal.main_arg5 (by decide) (by decide))).trans (Cert.KernelIdeal.Gen.W_main_arg5 m (Cert.KernelIdeal.Gen.dats m) c),
      ((h c).2 Cert.KernelIdeal.main_arg6 (Pipeline.mem_restRefs_of Cert.KernelIdeal.main_arg6 (by decide) (by decide))).trans (Cert.KernelIdeal.Gen.W_main_arg6 m (Cert.KernelIdeal.Gen.dats m) c),
      ((h c).2 Cert.KernelIdeal.main_arg7 (Pipeline.mem_restRefs_of Cert.KernelIdeal.main_arg7 (by decide) (by decide))).trans (Cert.KernelIdeal.Gen.W_main_arg7 m (Cert.KernelIdeal.Gen.dats m) c),
      ((h c).2 Cert.KernelIdeal.main_arg8 (Pipeline.mem_restRefs_of Cert.KernelIdeal.main_arg8 (by decide) (by decide))).trans (Cert.KernelIdeal.Gen.W_main_arg8 m (Cert.KernelIdeal.Gen.dats m) c),
      ((h c).2 Cert.KernelIdeal.main_arg9 (Pipeline.mem_restRefs_of Cert.KernelIdeal.main_arg9 (by decide) (by decide))).trans (Cert.KernelIdeal.Gen.W_main_arg9 m (Cert.KernelIdeal.Gen.dats m) c),
      ((h c).2 Cert.KernelIdeal.main_arg10 (Pipeline.mem_restRefs_of Cert.KernelIdeal.main_arg10 (by decide) (by decide))).trans (Cert.KernelIdeal.Gen.W_main_arg10 m (Cert.KernelIdeal.Gen.dats m) c),
      ((h c).2 Cert.KernelIdeal.main_arg11 (Pipeline.mem_restRefs_of Cert.KernelIdeal.main_arg11 (by decide) (by decide))).trans (Cert.KernelIdeal.Gen.W_main_arg11 m (Cert.KernelIdeal.Gen.dats m) c),
      ((h c).2 Cert.KernelIdeal.main_arg12 (Pipeline.mem_restRefs_of Cert.KernelIdeal.main_arg12 (by decide) (by decide))).trans (Cert.KernelIdeal.Gen.W_main_arg12 m (Cert.KernelIdeal.Gen.dats m) c),
      ((h c).1 1).trans (((Cert.KernelIdeal.Gen.dats m 0 c).arrAt_in 1 rfl _).trans ((Cert.KernelIdeal.Gen.A_eq m c 1).trans (Cert.KernelIdeal.Gen.V_main_arg13 m c))),
      ((h c).1 4).trans (((Cert.KernelIdeal.Gen.dats m 0 c).arrAt_in 4 rfl _).trans ((Cert.KernelIdeal.Gen.A_eq m c 4).trans (Cert.KernelIdeal.Gen.V_main_arg14 m c))),
      ((h c).2 Cert.KernelIdeal.main_arg15 (Pipeline.mem_restRefs_of Cert.KernelIdeal.main_arg15 (by decide) (by decide))).trans (Cert.KernelIdeal.Gen.W_main_arg15 m (Cert.KernelIdeal.Gen.dats m) c),
      ((h c).2 Cert.KernelIdeal.main_arg16 (Pipeline.mem_restRefs_of Cert.KernelIdeal.main_arg16 (by decide) (by decide))).trans (Cert.KernelIdeal.Gen.W_main_arg16 m (Cert.KernelIdeal.Gen.dats m) c),
      ((h c).2 Cert.KernelIdeal.main_arg17 (Pipeline.mem_restRefs_of Cert.KernelIdeal.main_arg17 (by decide) (by decide))).trans (Cert.KernelIdeal.Gen.W_main_arg17 m (Cert.KernelIdeal.Gen.dats m) c),
      ((h c).2 Cert.KernelIdeal.main_arg18 (Pipeline.mem_restRefs_of Cert.KernelIdeal.main_arg18 (by decide) (by decide))).trans (Cert.KernelIdeal.Gen.W_main_arg18 m (Cert.KernelIdeal.Gen.dats m) c)⟩) (Cert.KernelIdeal.Gen.run_main m ρ)
    exact ((h c).2 Cert.KernelIdeal.main_v48 (Pipeline.mem_restRefs_of Cert.KernelIdeal.main_v48 (by decide) (by decide))).trans
      (Cert.Bridge.kernel_result m c)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18⟩ := hagree c
    obtain ⟨r0, r1, r2, r13, r14⟩ := Cert.Bridge.real_of_finite_inputs _ _ _ _ _ _ _ _ _ _ _ _ _ _ _ _ _ _ _ (hpre c)
    refine (Cert.Bridge.ref_result m' c).trans ?_
    exact tail_congr ((feat_congr e0 e1 e2 e3 e4 e13 e14).trans (Cert.Bridge.kernel_feat_eq_ref m c r0 r2 r13 r14).symm)
      e5 e6 e7 e8 e9 e10 e11 e12 e15 e16 e17 e18

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
